-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S512x512 : Shape := ⟨2, ![512, 512]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x4096x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8x4096x512 : Shape := ⟨3, ![8, 4096, 512]⟩
abbrev S512x512 : Shape := ⟨2, ![512, 512]⟩
abbrev S512 : Shape := ⟨1, ![512]⟩
abbrev S32768x512 : Shape := ⟨2, ![32768, 512]⟩
abbrev S1024x512 : Shape := ⟨2, ![1024, 512]⟩
abbrev S1x512 : Shape := ⟨2, ![1, 512]⟩
abbrev S1x1024x512 : Shape := ⟨3, ![1, 1024, 512]⟩
abbrev S1x4096x512 : Shape := ⟨3, ![1, 4096, 512]⟩
abbrev S4096x512 : Shape := ⟨2, ![4096, 512]⟩

abbrev nBuf : Space → Nat
  | .hbm => 18
  | .vmem => 23
  | .smem => 0
  | _ => 0

abbrev bufTy : (tb : Table) → Fin (tcTables nBuf tb) → BufTy
  | .hbm, ⟨0, _⟩ => ⟨S8x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S32768x512, .f32⟩
  | .hbm, ⟨8, _⟩ => ⟨S512x512, .bf16⟩
  | .hbm, ⟨9, _⟩ => ⟨S512x512, .bf16⟩
  | .hbm, ⟨10, _⟩ => ⟨S512x512, .bf16⟩
  | .hbm, ⟨11, _⟩ => ⟨S32768x512, .bf16⟩
  | .hbm, ⟨12, _⟩ => ⟨S32768x512, .bf16⟩
  | .hbm, ⟨13, _⟩ => ⟨S32768x512, .bf16⟩
  | .hbm, ⟨14, _⟩ => ⟨S8x4096x512, .bf16⟩
  | .hbm, ⟨15, _⟩ => ⟨S8x4096x512, .bf16⟩
  | .hbm, ⟨16, _⟩ => ⟨S8x4096x512, .bf16⟩
  | .hbm, ⟨17, _⟩ => ⟨S8x4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x4096x512, .bf16⟩
  | .local _ .vmem, ⟨17, _⟩ => ⟨S1x4096x512, .bf16⟩
  | .local _ .vmem, ⟨18, _⟩ => ⟨S1x4096x512, .bf16⟩
  | .local _ .vmem, ⟨19, _⟩ => ⟨S1x4096x512, .bf16⟩
  | .local _ .vmem, ⟨20, _⟩ => ⟨S1x1024x512, .f32⟩
  | .local _ .vmem, ⟨21, _⟩ => ⟨S1x1024x512, .f32⟩
  | .local _ .vmem, ⟨22, _⟩ => ⟨S1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 4], ![false, false]⟩

@[reducible] def k1_t1_loop : Scf.Loop 32 :=
  let c0_i32_5 : BitVec 32 := 0#32
  let c8_i32 : BitVec 32 := 8#32
  let v6 : BitVec 32 := Scalar.addi c0_i32_5 c8_i32
  let c1_i32 : BitVec 32 := 1#32
  ⟨c0_i32_5, v6, c1_i32⟩
def k1_mult1 (k1_t1 : Fin k1_t1_loop.trips) : BitVec 32 :=
  let c0_i32_13 : BitVec 32 := 0#32
  let c0_i32_5 : BitVec 32 := 0#32
  let c1_i32 : BitVec 32 := 1#32
  let arg7 : BitVec 32 := Scf.iv c0_i32_5 c1_i32 k1_t1
  let c1_i32_12 : BitVec 32 := 1#32
  let v11 : BitVec 32 := Scalar.muli arg7 c1_i32_12
  let v12 : BitVec 32 := Scalar.addi c0_i32_13 v11
  let c512_i32 : BitVec 32 := 512#32
  let v13 : BitVec 32 := Scalar.muli v12 c512_i32
  v13
def k1_off1 (k1_t1 : Fin k1_t1_loop.trips) : Fin 2 → Nat :=
  let c0_i32_13 : BitVec 32 := 0#32
  let c0_i32_5 : BitVec 32 := 0#32
  let c1_i32 : BitVec 32 := 1#32
  let arg7 : BitVec 32 := Scf.iv c0_i32_5 c1_i32 k1_t1
  let c1_i32_12 : BitVec 32 := 1#32
  let v11 : BitVec 32 := Scalar.muli arg7 c1_i32_12
  let v12 : BitVec 32 := Scalar.addi c0_i32_13 v11
  let c512_i32 : BitVec 32 := 512#32
  let v13 : BitVec 32 := Scalar.muli v12 c512_i32
  let v14 : BitVec 32 := v13
  let v17 : Index := Scalar.indexCast v14
  let c0_16 : Index := 0#32
  ![v17.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x4096x512_S32768x512 : S8x4096x512.ShapeCasts S32768x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S32768x512_S8x4096x512 : S32768x512.ShapeCasts S8x4096x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x4096x512_S1x4096x512_0_0_0 : ∀ a, (![0, 0, 0] : Fin 3 → Nat) a + S1x4096x512.size a ≤ S1x4096x512.size a
  squeezes_S1x4096x512_S4096x512 : S1x4096x512.Squeezes S4096x512
  shapeCasts_S1024x512_S1x1024x512 : S1024x512.ShapeCasts S1x1024x512
  dot_S1024x512_S512x512_S1024x512_1_1_0_0_n_n_wf : DotDims.WF S1024x512 S512x512 S1024x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S32768x512.size a
  hwx0_7 : ∀ i : grid0.Coords, EltTy.bits .bf16 = 32 ∨ (Rect.block (s := S32768x512) S1024x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S32768x512.size a
  hwx0_8 : ∀ i : grid0.Coords, EltTy.bits .bf16 = 32 ∨ (Rect.block (s := S32768x512) S1024x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S32768x512.size a
  hwx0_9 : ∀ i : grid0.Coords, EltTy.bits .bf16 = 32 ∨ (Rect.block (s := S32768x512) S1024x512.size (cc0_transform_9 i) (hinb0_9 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x512.size a ≤ S4096x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x4096x512.size a
  hwx1_0 : ∀ i : grid1.Coords, EltTy.bits .bf16 = 32 ∨ (Rect.block (s := S8x4096x512) S1x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x512.size a ≤ S8x4096x512.size a
  hwx1_1 : ∀ i : grid1.Coords, EltTy.bits .bf16 = 32 ∨ (Rect.block (s := S8x4096x512) S1x4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x512.size a ≤ S8x4096x512.size a
  hwx1_2 : ∀ i : grid1.Coords, EltTy.bits .bf16 = 32 ∨ (Rect.block (s := S8x4096x512) S1x4096x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S8x4096x512.size a
  hwx1_3 : ∀ i : grid1.Coords, EltTy.bits .f32 = 32 ∨ (Rect.block (s := S8x4096x512) S1x1024x512.size (cc1_transform_3 i) (hinb1_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x4096x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x4096x512 : Shape := ⟨3, ![8, 4096, 512]⟩
abbrev S512x512 : Shape := ⟨2, ![512, 512]⟩
abbrev S512 : Shape := ⟨1, ![512]⟩
abbrev S1x1x512 : Shape := ⟨3, ![1, 1, 512]⟩
abbrev S8x4096x4096 : Shape := ⟨3, ![8, 4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x4096x512, .f32⟩
  | .hbm, ⟨8, _⟩ => ⟨S1x1x512, .f32⟩
  | .hbm, ⟨9, _⟩ => ⟨S8x4096x512, .f32⟩
  | .hbm, ⟨10, _⟩ => ⟨S8x4096x512, .f32⟩
  | .hbm, ⟨11, _⟩ => ⟨S8x4096x512, .f32⟩
  | .hbm, ⟨12, _⟩ => ⟨S1x1x512, .f32⟩
  | .hbm, ⟨13, _⟩ => ⟨S8x4096x512, .f32⟩
  | .hbm, ⟨14, _⟩ => ⟨S8x4096x512, .f32⟩
  | .hbm, ⟨15, _⟩ => ⟨S8x4096x512, .f32⟩
  | .hbm, ⟨16, _⟩ => ⟨S1x1x512, .f32⟩
  | .hbm, ⟨17, _⟩ => ⟨S8x4096x512, .f32⟩
  | .hbm, ⟨18, _⟩ => ⟨S8x4096x512, .f32⟩
  | .hbm, ⟨19, _⟩ => ⟨S8x4096x4096, .f32⟩
  | .hbm, ⟨20, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x512_S512x512_S8x4096x512_2_1_01_0_n_n_wf : DotDims.WF S8x4096x512 S512x512 S8x4096x512 [2] [1] [0, 1] [0] [] []
  dot_S8x4096x512_S8x4096x512_S8x4096x4096_2_2_1_1_0_0_wf : DotDims.WF S8x4096x512 S8x4096x512 S8x4096x4096 [2] [2] [1] [1] [0] [0]
  dot_S8x4096x4096_S8x4096x512_S8x4096x512_2_1_1_2_0_0_wf : DotDims.WF S8x4096x4096 S8x4096x512 S8x4096x512 [2] [1] [1] [2] [0] [0]

variable [Facts₀]

def dot_S8x4096x512_S512x512_S8x4096x512_2_1_01_0_n_n : DotDims S8x4096x512 S512x512 S8x4096x512 where
  lhsContracting := [2]
  rhsContracting := [1]
  lhsNonContracting := [0, 1]
  rhsNonContracting := [0]
  lhsBatch := []
  rhsBatch := []
  wf := dot_S8x4096x512_S512x512_S8x4096x512_2_1_01_0_n_n_wf
def dot_S8x4096x512_S8x4096x512_S8x4096x4096_2_2_1_1_0_0 : DotDims S8x4096x512 S8x4096x512 S8x4096x4096 where
  lhsContracting := [2]
  rhsContracting := [2]
  lhsNonContracting := [1]
  rhsNonContracting := [1]
  lhsBatch := [0]
  rhsBatch := [0]
  wf := dot_S8x4096x512_S8x4096x512_S8x4096x4096_2_2_1_1_0_0_wf
def dot_S8x4096x4096_S8x4096x512_S8x4096x512_2_1_1_2_0_0 : DotDims S8x4096x4096 S8x4096x512 S8x4096x512 where
  lhsContracting := [2]
  rhsContracting := [1]
  lhsNonContracting := [1]
  rhsNonContracting := [2]
  lhsBatch := [0]
  rhsBatch := [0]
  wf := dot_S8x4096x4096_S8x4096x512_S8x4096x512_2_1_1_2_0_0_wf

class Facts : Prop extends Facts₀ where

variable [Facts]
-- ==== Proof.K.Body0.lean ====
import proofs.«100256_j75668733821313_2_alg».proof.Proof.Gen.Kernel.Launch
import proofs.«100256_j75668733821313_2_alg».proof.Proof.Gen.Kernel.Skeleton
import proofs.«100256_j75668733821313_2_alg».proof.Proof.Gen.Kernel.Points
import proofs.«100256_j75668733821313_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region: three products of one row block of the activations with the three weight
    matrices, each plus its bias row, at the contents `V` the region finds in the arrays. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's run -/

set_option maxHeartbeats 4000000 in
/-- The body on whole staging memrefs, the seven inputs at their contents and the three outputs at anything, runs to
    the continuation holding the inputs as they were and each output with the pieces its store wrote; the piece
    lists are the witnesses the run finds. -/
noncomputable def kernelRun0 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) :
    Σ' (L7 : List (View.Piece (Elt F) S1024x512 .bf16)) (L8 : List (View.Piece (Elt F) S1024x512 .bf16)), { L9 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## The pieces cover each output block -/

/-- The run's pieces for output window 7 tile its block, so they cover it. -/
theorem cover0_7 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) (y : S1024x512.Idx) :
    ∃ pc ∈ (kernelRun0 (F := F) c i arg1 harg1 arg2 harg2 arg3 harg3 arg4 harg4 arg5 harg5 arg6 harg6 arg7 harg7 arg8 harg8 arg9 harg9 arg10 harg10 x0 x1 x2 x3 x4 x5 x6).1, y ∈ pc.1.set :=
  View.cover_of_tiledL (kernelRun0 (F := F) c i arg1 harg1 arg2 harg2 arg3 harg3 arg4 harg4 arg5 harg5 arg6 harg6 arg7 harg7 arg8 harg8 arg9 harg9 arg10 harg10 x0 x1 x2 x3 x4 x5 x6).1 S1024x512.size (by sl_kernel_rfl) y

/-- The run's pieces for output window 8 tile its block, so they cover it. -/
theorem cover0_8 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) (y : S1024x512.Idx) :
    ∃ pc ∈ (kernelRun0 (F := F) c i arg1 harg1 arg2 harg2 arg3 harg3 arg4 harg4 arg5 harg5 arg6 harg6 arg7 harg7 arg8 harg8 arg9 harg9 arg10 harg10 x0 x1 x2 x3 x4 x5 x6).2.1, y ∈ pc.1.set :=
  View.cover_of_tiledL (kernelRun0 (F := F) c i arg1 harg1 arg2 harg2 arg3 harg3 arg4 harg4 arg5 harg5 arg6 harg6 arg7 harg7 arg8 harg8 arg9 harg9 arg10 harg10 x0 x1 x2 x3 x4 x5 x6).2.1 S1024x512.size (by sl_kernel_rfl) y

/-- The run's pieces for output window 9 tile its block, so they cover it. -/
theorem cover0_9 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) (y : S1024x512.Idx) :
    ∃ pc ∈ (kernelRun0 (F := F) c i arg1 harg1 arg2 harg2 arg3 harg3 arg4 harg4 arg5 harg5 arg6 harg6 arg7 harg7 arg8 harg8 arg9 harg9 arg10 harg10 x0 x1 x2 x3 x4 x5 x6).2.2.1, y ∈ pc.1.set :=
  View.cover_of_tiledL (kernelRun0 (F := F) c i arg1 harg1 arg2 harg2 arg3 harg3 arg4 harg4 arg5 harg5 arg6 harg6 arg7 harg7 arg8 harg8 arg9 harg9 arg10 harg10 x0 x1 x2 x3 x4 x5 x6).2.2.1 S1024x512.size (by sl_kernel_rfl) y

section Region0Data
variable (V : (c : Dev nD) → (b : Ref sig .tc) → Buf (Elt F) ((c : Thread nD τ).loc b))

/-- The body's run at point `t`: on the point's staging memrefs, the inputs at their blocks. -/
abbrev run0At (c : Dev nD) (t : Fin cfg0.N) :=
  kernelRun0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    (iblk0 V c 0 t) (iblk0 V c 1 t) (iblk0 V c 2 t) (iblk0 V c 3 t) (iblk0 V c 4 t) (iblk0 V c 5 t) (iblk0 V c 6 t)

/-- The proof data of the projection pipeline on core `c`: the arrays as the region finds them; after the body at
    point `t` each input's buffer at its block and each output's at the canon of the pieces the run wrote; the
    invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => View.canon (run0At V c t).1
    | ⟨8, _⟩ => View.canon (run0At V c t).2.1
    | ⟨9, _⟩ => View.canon (run0At V c t).2.2.1
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = View.canon (run0At V c t).1 := by dsimp only [dat0]
theorem after0_8 (c : Dev nD) (t : Fin cfg0.N) : (dat0 V c).after 8 t = View.canon (run0At V c t).2.1 := by dsimp only [dat0]
theorem after0_9 (c : Dev nD) (t : Fin cfg0.N) : (dat0 V c).after 9 t = View.canon (run0At V c t).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the run applies; the invariant and the core's
    dues pass through unread; each output's buffer, its pieces covering it, reads back as their canon. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run0At V c t).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (cover0_7 c _ _ _ _ _ _ _ _ _ _ _ _ _ _ _ _ _ _ _ _ _ _ _ _ _ _ _ _)
  isplitl [H8]
  · unfold owns; iexists _; isplitr
    swap; · iexact H8
    ipureintro; exact View.read_writes_eq_canon _ _ _ (cover0_8 c _ _ _ _ _ _ _ _ _ _ _ _ _ _ _ _ _ _ _ _ _ _ _ _ _ _ _ _)
  unfold owns; iexists _; isplitr
  swap; · iexact H9
  ipureintro; exact View.read_writes_eq_canon _ _ _ (cover0_9 c _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0Data

end Cert.Kernel.Hand

end
-- ==== Proof.K.Body1.lean ====
import proofs.«100256_j75668733821313_2_alg».proof.Proof.Gen.Kernel.Launch
import proofs.«100256_j75668733821313_2_alg».proof.Proof.Gen.Kernel.Skeleton
import proofs.«100256_j75668733821313_2_alg».proof.Proof.Gen.Kernel.Points
import proofs.«100256_j75668733821313_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: one block of query rows against all key rows of its batch, the products with the
    value rows accumulated over eight blocks of keys in a scratch buffer, at the contents `V` the region finds. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The key and value windows through the view the loop reads them by -/

/-- A (1, 4096, 512) window seen as its one (4096, 512) matrix: the whole slice, its unit axis dropped. -/
abbrev kview (M : Memref sig .tc .vmem S1x4096x512 .bf16) : Memref sig .tc .vmem S4096x512 .bf16 :=
  (M.slice (Rect.unit (s := S1x4096x512) ![0, 0, 0] S1x4096x512.size inb_S1x4096x512_S1x4096x512_0_0_0) (fun _ => rfl)).squeeze S4096x512 squeezes_S1x4096x512_S4096x512

/-- The matrix view names exactly the window's elements. -/
theorem kview_set (M : Memref sig .tc .vmem S1x4096x512 .bf16) : (kview M).view.set = M.view.set := by
  rw [Memref.set_view_squeeze]
  show (M.view.slice _).set = _
  rw [View.set_slice]
  have : (Rect.unit (s := S1x4096x512) ![0, 0, 0] S1x4096x512.size inb_S1x4096x512_S1x4096x512_0_0_0).set = Finset.univ :=
    Finset.eq_univ_of_forall fun y => View.mem_set_unit_zero (funext fun a => by fin_cases a <;> rfl) _ y
  rw [this]; rfl

/-- So holding the window is holding it through the matrix view. -/
theorem kview_held (c : Dev nD) (M : Memref sig .tc .vmem S1x4096x512 .bf16) (f : BufTy.Contents (Elt F) M.view.ty) :
    ((M.view.loc (c : Thread nD τ) ↦[M.view.set]{fullShare} f : sProp 𝕄))
      = ((kview M).view.loc (c : Thread nD τ) ↦[(kview M).view.set]{fullShare} f) := by
  rw [kview_set]

theorem kview_held_to (c : Dev nD) (M : Memref sig .tc .vmem S1x4096x512 .bf16) (f : BufTy.Contents (Elt F) M.view.ty) :
    ((M.view.loc (c : Thread nD τ) ↦[M.view.set]{fullShare} f : sProp 𝕄))
      ⊢ ((kview M).view.loc (c : Thread nD τ) ↦[(kview M).view.set]{fullShare} f) := by
  rw [kview_held]

theorem kview_held_from (c : Dev nD) (M : Memref sig .tc .vmem S1x4096x512 .bf16) (f : BufTy.Contents (Elt F) M.view.ty) :
    (((kview M).view.loc (c : Thread nD τ) ↦[(kview M).view.set]{fullShare} f : sProp 𝕄))
      ⊢ (M.view.loc (c : Thread nD τ) ↦[M.view.set]{fullShare} f) := by
  rw [kview_held]

/-! ## The body's run -/

set_option maxHeartbeats 4000000 in
/-- The body on whole staging memrefs and the scratch: the three inputs at their contents, the output and the
    scratch at anything. It runs to the continuation holding the inputs as they were, the output with the pieces its
    one store wrote (the witness the run finds) and the scratch at some contents. The loop over the key blocks goes
    through by its generated invariant. -/
noncomputable def kernelRun1 (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole)
    (x0 : Vec F S1x1024x512 .bf16) (x1 : Vec F S1x4096x512 .bf16) (x2 : Vec F S1x4096x512 .bf16) :
    { L3 : List (View.Piece (Elt F) S1x1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc1__attn_kernel i arg2 harg2 arg3 harg3 arg4 harg4 arg5 harg5 arg6 harg6) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, Hk⟩
    obtain rfl := harg2.eq_unread hf0; obtain rfl := harg3.eq_unread hf1; obtain rfl := harg4.eq_unread hf2
    ihave G1 := (kview_held_to c arg3 _) $$ [H1]
    · iexact H1
    ihave G2 := (kview_held_to c arg4 _) $$ [H2]
    · iexact H2
    sl_exec
    sl_step
    iapply Hk
    isplitl [H0]
    · iexists _; isplitr; · ipureintro; exact harg2.read_unread _
      iexact H0
    isplitl [G1]
    · iexists _; isplitr; · ipureintro; exact harg3.read_unread _
      iapply (kview_held_from c arg3 _); iexact G1
    isplitl [G2]
    · iexists _; isplitr; · ipureintro; exact harg4.read_unread _
      iapply (kview_held_from c arg4 _); iexact G2
    isplitl [H3]; · iexists _; iexact H3
    iexists _; iexists _; isplitr
    swap; · iexact H6
    ipureintro; rfl

/-! ## The pieces cover the output block -/

/-- The run's pieces for the output window tile its block, so they cover it. -/
theorem cover1_3 (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole)
    (x0 : Vec F S1x1024x512 .bf16) (x1 : Vec F S1x4096x512 .bf16) (x2 : Vec F S1x4096x512 .bf16) (y : S1x1024x512.Idx) :
    ∃ pc ∈ (kernelRun1 (F := F) c i arg2 harg2 arg3 harg3 arg4 harg4 arg5 harg5 arg6 harg6 x0 x1 x2).1, y ∈ pc.1.set :=
  View.cover_of_tiledL (kernelRun1 (F := F) c i arg2 harg2 arg3 harg3 arg4 harg4 arg5 harg5 arg6 harg6 x0 x1 x2).1 S1x1024x512.size (by sl_kernel_rfl) y

/-- The scratch accumulator as a memref. -/
abbrev scM1 : Memref sig .tc .vmem S1024x512 .f32 := Memref.whole cc1_scratch0

/-- The region's invariant with the scratch as a memref owned at some contents, beside the other scoped buffers
    (the projection region's staging buffers) at any contents and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1 fullShare d)) ∗ (∃ r, prngReg c r)) := by
  unfold Pipeline.ΦA; rw [scopedRest1_eq]; simp only [scM1, owns_whole]; try rfl

section Region1Data
variable (V : (c : Dev nD) → (b : Ref sig .tc) → Buf (Elt F) ((c : Thread nD τ).loc b))

/-- The body's run at point `t`: on the point's staging memrefs and the scratch, the inputs at their blocks. -/
abbrev run1At (c : Dev nD) (t : Fin cfg1.N) :=
  kernelRun1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)
    (iblk1 V c 0 t) (iblk1 V c 1 t) (iblk1 V c 2 t)

/-- The proof data of the attention pipeline on core `c`: the arrays as the region finds them; after the body at
    point `t` each input's buffer at its block and the output's at the canon of the pieces the run wrote; the
    invariant the scoped rest (the scratch in it, at any contents: every point fills it before reading it) and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => View.canon (run1At V c t).1
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = View.canon (run1At V c t).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point: the inputs' memrefs hold their blocks, the invariant hands over the scratch at whatever
    it holds, so the run applies; the scratch goes back into the invariant at some contents, the core's dues pass
    through unread, and the output's buffer, its pieces covering it, reads back as their canon. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  iintro ⟨⟨⟨R0, R1, R2, R3, R4, R5, R6, R7, R8, R9, R10, R11, R12, R13, HS⟩, Hg⟩, Ho, ⟨%d0, H0⟩, ⟨%d1, H1⟩, ⟨%d2, H2⟩, ⟨%d3, H3⟩⟩
  iapply ((run1At V c t).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [R0 R1 R2 R3 R4 R5 R6 R7 R8 R9 R10 R11 R12 R13 HS Hg]
  · isplitl [R0 R1 R2 R3 R4 R5 R6 R7 R8 R9 R10 R11 R12 R13 HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexact HS
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (cover1_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1Data

end Cert.Kernel.Hand

end
-- ==== Proof.K.Run.lean ====
import proofs.«100256_j75668733821313_2_alg».proof.Proof.K.Body0
import proofs.«100256_j75668733821313_2_alg».proof.Proof.K.Body1
import proofs.«100256_j75668733821313_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four segments from the launch to the return — the host stretch that reshapes the
    activations and narrows the weights, the projection region, the three reshapes of its results, the attention
    region — each region's arrays at what its write-backs leave. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_writes_sub hostOps0 _ hostOps0_writes (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at what the write-backs leave;
    the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave;
    the generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN, at any `F`: from any memory with zero counters every weakly fair execution of @main on the
    TensorCores terminates, nothing faulting, and every final state has each unscoped buffer at the last boundary's
    contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame, at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run m ρ)

end Cert.Kernel.Hand

end
-- ==== Proof.KI.Body0.lean ====
import proofs.«100256_j75668733821313_2_alg».proof.Proof.Gen.KernelIdeal.Launch
import proofs.«100256_j75668733821313_2_alg».proof.Proof.Gen.KernelIdeal.Skeleton
import proofs.«100256_j75668733821313_2_alg».proof.Proof.Gen.KernelIdeal.Points
import proofs.«100256_j75668733821313_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region: three products of one row block of the activations with the three weight
    matrices, each plus its bias row, at the contents `V` the region finds in the arrays. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's run -/

set_option maxHeartbeats 4000000 in
/-- The body on whole staging memrefs, the seven inputs at their contents and the three outputs at anything, runs to
    the continuation holding the inputs as they were and each output with the pieces its store wrote; the piece
    lists are the witnesses the run finds. -/
noncomputable def kernelRun0 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) :
    Σ' (L7 : List (View.Piece (Elt F) S1024x512 .bf16)) (L8 : List (View.Piece (Elt F) S1024x512 .bf16)), { L9 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## The pieces cover each output block -/

/-- The run's pieces for output window 7 tile its block, so they cover it. -/
theorem cover0_7 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) (y : S1024x512.Idx) :
    ∃ pc ∈ (kernelRun0 (F := F) c i arg1 harg1 arg2 harg2 arg3 harg3 arg4 harg4 arg5 harg5 arg6 harg6 arg7 harg7 arg8 harg8 arg9 harg9 arg10 harg10 x0 x1 x2 x3 x4 x5 x6).1, y ∈ pc.1.set :=
  View.cover_of_tiledL (kernelRun0 (F := F) c i arg1 harg1 arg2 harg2 arg3 harg3 arg4 harg4 arg5 harg5 arg6 harg6 arg7 harg7 arg8 harg8 arg9 harg9 arg10 harg10 x0 x1 x2 x3 x4 x5 x6).1 S1024x512.size (by sl_kernel_rfl) y

/-- The run's pieces for output window 8 tile its block, so they cover it. -/
theorem cover0_8 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) (y : S1024x512.Idx) :
    ∃ pc ∈ (kernelRun0 (F := F) c i arg1 harg1 arg2 harg2 arg3 harg3 arg4 harg4 arg5 harg5 arg6 harg6 arg7 harg7 arg8 harg8 arg9 harg9 arg10 harg10 x0 x1 x2 x3 x4 x5 x6).2.1, y ∈ pc.1.set :=
  View.cover_of_tiledL (kernelRun0 (F := F) c i arg1 harg1 arg2 harg2 arg3 harg3 arg4 harg4 arg5 harg5 arg6 harg6 arg7 harg7 arg8 harg8 arg9 harg9 arg10 harg10 x0 x1 x2 x3 x4 x5 x6).2.1 S1024x512.size (by sl_kernel_rfl) y

/-- The run's pieces for output window 9 tile its block, so they cover it. -/
theorem cover0_9 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) (y : S1024x512.Idx) :
    ∃ pc ∈ (kernelRun0 (F := F) c i arg1 harg1 arg2 harg2 arg3 harg3 arg4 harg4 arg5 harg5 arg6 harg6 arg7 harg7 arg8 harg8 arg9 harg9 arg10 harg10 x0 x1 x2 x3 x4 x5 x6).2.2.1, y ∈ pc.1.set :=
  View.cover_of_tiledL (kernelRun0 (F := F) c i arg1 harg1 arg2 harg2 arg3 harg3 arg4 harg4 arg5 harg5 arg6 harg6 arg7 harg7 arg8 harg8 arg9 harg9 arg10 harg10 x0 x1 x2 x3 x4 x5 x6).2.2.1 S1024x512.size (by sl_kernel_rfl) y

section Region0Data
variable (V : (c : Dev nD) → (b : Ref sig .tc) → Buf (Elt F) ((c : Thread nD τ).loc b))

/-- The body's run at point `t`: on the point's staging memrefs, the inputs at their blocks. -/
abbrev run0At (c : Dev nD) (t : Fin cfg0.N) :=
  kernelRun0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    (iblk0 V c 0 t) (iblk0 V c 1 t) (iblk0 V c 2 t) (iblk0 V c 3 t) (iblk0 V c 4 t) (iblk0 V c 5 t) (iblk0 V c 6 t)

/-- The proof data of the projection pipeline on core `c`: the arrays as the region finds them; after the body at
    point `t` each input's buffer at its block and each output's at the canon of the pieces the run wrote; the
    invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => View.canon (run0At V c t).1
    | ⟨8, _⟩ => View.canon (run0At V c t).2.1
    | ⟨9, _⟩ => View.canon (run0At V c t).2.2.1
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = View.canon (run0At V c t).1 := by dsimp only [dat0]
theorem after0_8 (c : Dev nD) (t : Fin cfg0.N) : (dat0 V c).after 8 t = View.canon (run0At V c t).2.1 := by dsimp only [dat0]
theorem after0_9 (c : Dev nD) (t : Fin cfg0.N) : (dat0 V c).after 9 t = View.canon (run0At V c t).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the run applies; the invariant and the core's
    dues pass through unread; each output's buffer, its pieces covering it, reads back as their canon. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run0At V c t).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (cover0_7 c _ _ _ _ _ _ _ _ _ _ _ _ _ _ _ _ _ _ _ _ _ _ _ _ _ _ _ _)
  isplitl [H8]
  · unfold owns; iexists _; isplitr
    swap; · iexact H8
    ipureintro; exact View.read_writes_eq_canon _ _ _ (cover0_8 c _ _ _ _ _ _ _ _ _ _ _ _ _ _ _ _ _ _ _ _ _ _ _ _ _ _ _ _)
  unfold owns; iexists _; isplitr
  swap; · iexact H9
  ipureintro; exact View.read_writes_eq_canon _ _ _ (cover0_9 c _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0Data

end Cert.KernelIdeal.Hand

end
-- ==== Proof.KI.Body1.lean ====
import proofs.«100256_j75668733821313_2_alg».proof.Proof.Gen.KernelIdeal.Launch
import proofs.«100256_j75668733821313_2_alg».proof.Proof.Gen.KernelIdeal.Skeleton
import proofs.«100256_j75668733821313_2_alg».proof.Proof.Gen.KernelIdeal.Points
import proofs.«100256_j75668733821313_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: one block of query rows against all key rows of its batch, the products with the
    value rows accumulated over eight blocks of keys in a scratch buffer, at the contents `V` the region finds. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The key and value windows through the view the loop reads them by -/

/-- A (1, 4096, 512) window seen as its one (4096, 512) matrix: the whole slice, its unit axis dropped. -/
abbrev kview (M : Memref sig .tc .vmem S1x4096x512 .bf16) : Memref sig .tc .vmem S4096x512 .bf16 :=
  (M.slice (Rect.unit (s := S1x4096x512) ![0, 0, 0] S1x4096x512.size inb_S1x4096x512_S1x4096x512_0_0_0) (fun _ => rfl)).squeeze S4096x512 squeezes_S1x4096x512_S4096x512

/-- The matrix view names exactly the window's elements. -/
theorem kview_set (M : Memref sig .tc .vmem S1x4096x512 .bf16) : (kview M).view.set = M.view.set := by
  rw [Memref.set_view_squeeze]
  show (M.view.slice _).set = _
  rw [View.set_slice]
  have : (Rect.unit (s := S1x4096x512) ![0, 0, 0] S1x4096x512.size inb_S1x4096x512_S1x4096x512_0_0_0).set = Finset.univ :=
    Finset.eq_univ_of_forall fun y => View.mem_set_unit_zero (funext fun a => by fin_cases a <;> rfl) _ y
  rw [this]; rfl

/-- So holding the window is holding it through the matrix view. -/
theorem kview_held (c : Dev nD) (M : Memref sig .tc .vmem S1x4096x512 .bf16) (f : BufTy.Contents (Elt F) M.view.ty) :
    ((M.view.loc (c : Thread nD τ) ↦[M.view.set]{fullShare} f : sProp 𝕄))
      = ((kview M).view.loc (c : Thread nD τ) ↦[(kview M).view.set]{fullShare} f) := by
  rw [kview_set]

theorem kview_held_to (c : Dev nD) (M : Memref sig .tc .vmem S1x4096x512 .bf16) (f : BufTy.Contents (Elt F) M.view.ty) :
    ((M.view.loc (c : Thread nD τ) ↦[M.view.set]{fullShare} f : sProp 𝕄))
      ⊢ ((kview M).view.loc (c : Thread nD τ) ↦[(kview M).view.set]{fullShare} f) := by
  rw [kview_held]

theorem kview_held_from (c : Dev nD) (M : Memref sig .tc .vmem S1x4096x512 .bf16) (f : BufTy.Contents (Elt F) M.view.ty) :
    (((kview M).view.loc (c : Thread nD τ) ↦[(kview M).view.set]{fullShare} f : sProp 𝕄))
      ⊢ (M.view.loc (c : Thread nD τ) ↦[M.view.set]{fullShare} f) := by
  rw [kview_held]

/-! ## The body's run -/

set_option maxHeartbeats 4000000 in
/-- The body on whole staging memrefs and the scratch: the three inputs at their contents, the output and the
    scratch at anything. It runs to the continuation holding the inputs as they were, the output with the pieces its
    one store wrote (the witness the run finds) and the scratch at some contents. The loop over the key blocks goes
    through by its generated invariant. -/
noncomputable def kernelRun1 (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole)
    (x0 : Vec F S1x1024x512 .bf16) (x1 : Vec F S1x4096x512 .bf16) (x2 : Vec F S1x4096x512 .bf16) :
    { L3 : List (View.Piece (Elt F) S1x1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc1__attn_kernel i arg2 harg2 arg3 harg3 arg4 harg4 arg5 harg5 arg6 harg6) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, Hk⟩
    obtain rfl := harg2.eq_unread hf0; obtain rfl := harg3.eq_unread hf1; obtain rfl := harg4.eq_unread hf2
    ihave G1 := (kview_held_to c arg3 _) $$ [H1]
    · iexact H1
    ihave G2 := (kview_held_to c arg4 _) $$ [H2]
    · iexact H2
    sl_exec
    sl_step
    iapply Hk
    isplitl [H0]
    · iexists _; isplitr; · ipureintro; exact harg2.read_unread _
      iexact H0
    isplitl [G1]
    · iexists _; isplitr; · ipureintro; exact harg3.read_unread _
      iapply (kview_held_from c arg3 _); iexact G1
    isplitl [G2]
    · iexists _; isplitr; · ipureintro; exact harg4.read_unread _
      iapply (kview_held_from c arg4 _); iexact G2
    isplitl [H3]; · iexists _; iexact H3
    iexists _; iexists _; isplitr
    swap; · iexact H6
    ipureintro; rfl

/-! ## The pieces cover the output block -/

/-- The run's pieces for the output window tile its block, so they cover it. -/
theorem cover1_3 (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole)
    (x0 : Vec F S1x1024x512 .bf16) (x1 : Vec F S1x4096x512 .bf16) (x2 : Vec F S1x4096x512 .bf16) (y : S1x1024x512.Idx) :
    ∃ pc ∈ (kernelRun1 (F := F) c i arg2 harg2 arg3 harg3 arg4 harg4 arg5 harg5 arg6 harg6 x0 x1 x2).1, y ∈ pc.1.set :=
  View.cover_of_tiledL (kernelRun1 (F := F) c i arg2 harg2 arg3 harg3 arg4 harg4 arg5 harg5 arg6 harg6 x0 x1 x2).1 S1x1024x512.size (by sl_kernel_rfl) y

/-- The scratch accumulator as a memref. -/
abbrev scM1 : Memref sig .tc .vmem S1024x512 .f32 := Memref.whole cc1_scratch0

/-- The region's invariant with the scratch as a memref owned at some contents, beside the other scoped buffers
    (the projection region's staging buffers) at any contents and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1 fullShare d)) ∗ (∃ r, prngReg c r)) := by
  unfold Pipeline.ΦA; rw [scopedRest1_eq]; simp only [scM1, owns_whole]; try rfl

section Region1Data
variable (V : (c : Dev nD) → (b : Ref sig .tc) → Buf (Elt F) ((c : Thread nD τ).loc b))

/-- The body's run at point `t`: on the point's staging memrefs and the scratch, the inputs at their blocks. -/
abbrev run1At (c : Dev nD) (t : Fin cfg1.N) :=
  kernelRun1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)
    (iblk1 V c 0 t) (iblk1 V c 1 t) (iblk1 V c 2 t)

/-- The proof data of the attention pipeline on core `c`: the arrays as the region finds them; after the body at
    point `t` each input's buffer at its block and the output's at the canon of the pieces the run wrote; the
    invariant the scoped rest (the scratch in it, at any contents: every point fills it before reading it) and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => View.canon (run1At V c t).1
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = View.canon (run1At V c t).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point: the inputs' memrefs hold their blocks, the invariant hands over the scratch at whatever
    it holds, so the run applies; the scratch goes back into the invariant at some contents, the core's dues pass
    through unread, and the output's buffer, its pieces covering it, reads back as their canon. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  iintro ⟨⟨⟨R0, R1, R2, R3, R4, R5, R6, R7, R8, R9, R10, R11, R12, R13, HS⟩, Hg⟩, Ho, ⟨%d0, H0⟩, ⟨%d1, H1⟩, ⟨%d2, H2⟩, ⟨%d3, H3⟩⟩
  iapply ((run1At V c t).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [R0 R1 R2 R3 R4 R5 R6 R7 R8 R9 R10 R11 R12 R13 HS Hg]
  · isplitl [R0 R1 R2 R3 R4 R5 R6 R7 R8 R9 R10 R11 R12 R13 HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexact HS
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (cover1_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1Data

end Cert.KernelIdeal.Hand

end
-- ==== Proof.KI.Run.lean ====
import proofs.«100256_j75668733821313_2_alg».proof.Proof.KI.Body0
import proofs.«100256_j75668733821313_2_alg».proof.Proof.KI.Body1
import proofs.«100256_j75668733821313_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four segments from the launch to the return — the host stretch that reshapes the
    activations and narrows the weights, the projection region, the three reshapes of its results, the attention
    region — each region's arrays at what its write-backs leave. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_writes_sub hostOps0 _ hostOps0_writes (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at what the write-backs leave;
    the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave;
    the generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN, at any `F`: from any memory with zero counters every weakly fair execution of @main on the
    TensorCores terminates, nothing faulting, and every final state has each unscoped buffer at the last boundary's
    contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame, at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run m ρ)

end Cert.KernelIdeal.Hand

end
-- ==== Proof.KI.Out0.lean ====
import proofs.«100256_j75668733821313_2_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the projection body leaves in each output block: the block's payload of the three blocks it loaded. -/

abbrev rA2 : Rect S1024x512 := Rect.unit (s := S1024x512) ![0, 0] S1024x512.size inb_S1024x512_S1024x512_0_0
abbrev rS : Rect S512x512 := Rect.unit (s := S512x512) ![0, 0] S512x512.size inb_S512x512_S512x512_0_0
abbrev rB : Rect S512 := Rect.unit (s := S512) ![0] S512.size inb_S512_S512_0
theorem hzA2 : (![0, 0] : Fin 2 → ℕ) = fun _ => 0 := funext fun a => by fin_cases a <;> rfl
theorem hzA1 : (![0] : Fin 1 → ℕ) = fun _ => 0 := funext fun a => by fin_cases a <;> rfl

set_option maxHeartbeats 4000000 in
/-- The run's one piece for output window 7. -/
theorem run0_pieces7 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) :
    (kernelRun0 (F := F) c i arg1 harg1 arg2 harg2 arg3 harg3 arg4 harg4 arg5 harg5 arg6 harg6 arg7 harg7 arg8 harg8 arg9 harg9 arg10 harg10 x0 x1 x2 x3 x4 x5 x6).1
      = [⟨rA2, k0_pay2 (View.readAt (Elt F) arg1.view rA2.toLoadRect (harg1.unread x0))
          (View.readAt (Elt F) arg2.view rS.toLoadRect (harg2.unread x1))
          (View.readAt (Elt F) arg3.view rB.toLoadRect (harg3.unread x2))⟩] := rfl

/-- Output window 7's block is its payload of the activation block, the weight matrix and the bias row. -/
theorem out0_7_eq (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) :
    View.canon (kernelRun0 (F := F) c i arg1 harg1 arg2 harg2 arg3 harg3 arg4 harg4 arg5 harg5 arg6 harg6 arg7 harg7 arg8 harg8 arg9 harg9 arg10 harg10 x0 x1 x2 x3 x4 x5 x6).1 = k0_pay2 x0 x1 x2 := by
  rw [run0_pieces7, View.canon_unit_zero (S := S1024x512) hzA2]
  simp only [View.readAt_eq_ld, Memref.IsWhole.read_unread, View.ld_unit_zero (S := S1024x512) hzA2,
    View.ld_unit_zero (S := S512x512) hzA2, View.ld_unit_zero (S := S512) hzA1]

set_option maxHeartbeats 4000000 in
/-- The run's one piece for output window 8. -/
theorem run0_pieces8 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) :
    (kernelRun0 (F := F) c i arg1 harg1 arg2 harg2 arg3 harg3 arg4 harg4 arg5 harg5 arg6 harg6 arg7 harg7 arg8 harg8 arg9 harg9 arg10 harg10 x0 x1 x2 x3 x4 x5 x6).2.1
      = [⟨rA2, k0_pay3 (View.readAt (Elt F) arg1.view rA2.toLoadRect (harg1.unread x0))
          (View.readAt (Elt F) arg4.view rS.toLoadRect (harg4.unread x3))
          (View.readAt (Elt F) arg5.view rB.toLoadRect (harg5.unread x4))⟩] := rfl

/-- Output window 8's block is its payload of the activation block, the weight matrix and the bias row. -/
theorem out0_8_eq (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) :
    View.canon (kernelRun0 (F := F) c i arg1 harg1 arg2 harg2 arg3 harg3 arg4 harg4 arg5 harg5 arg6 harg6 arg7 harg7 arg8 harg8 arg9 harg9 arg10 harg10 x0 x1 x2 x3 x4 x5 x6).2.1 = k0_pay3 x0 x3 x4 := by
  rw [run0_pieces8, View.canon_unit_zero (S := S1024x512) hzA2]
  simp only [View.readAt_eq_ld, Memref.IsWhole.read_unread, View.ld_unit_zero (S := S1024x512) hzA2,
    View.ld_unit_zero (S := S512x512) hzA2, View.ld_unit_zero (S := S512) hzA1]

set_option maxHeartbeats 4000000 in
/-- The run's one piece for output window 9. -/
theorem run0_pieces9 (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) :
    (kernelRun0 (F := F) c i arg1 harg1 arg2 harg2 arg3 harg3 arg4 harg4 arg5 harg5 arg6 harg6 arg7 harg7 arg8 harg8 arg9 harg9 arg10 harg10 x0 x1 x2 x3 x4 x5 x6).2.2.1
      = [⟨rA2, k0_pay4 (View.readAt (Elt F) arg1.view rA2.toLoadRect (harg1.unread x0))
          (View.readAt (Elt F) arg6.view rS.toLoadRect (harg6.unread x5))
          (View.readAt (Elt F) arg7.view rB.toLoadRect (harg7.unread x6))⟩] := rfl

/-- Output window 9's block is its payload of the activation block, the weight matrix and the bias row. -/
theorem out0_9_eq (c : Dev nD) (i : grid0.Coords) (arg1 : Memref sig .tc .vmem S1024x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .bf16) (x2 : Vec F S512 .f32) (x3 : Vec F S512x512 .bf16) (x4 : Vec F S512 .f32) (x5 : Vec F S512x512 .bf16) (x6 : Vec F S512 .f32) :
    View.canon (kernelRun0 (F := F) c i arg1 harg1 arg2 harg2 arg3 harg3 arg4 harg4 arg5 harg5 arg6 harg6 arg7 harg7 arg8 harg8 arg9 harg9 arg10 harg10 x0 x1 x2 x3 x4 x5 x6).2.2.1 = k0_pay4 x0 x5 x6 := by
  rw [run0_pieces9, View.canon_unit_zero (S := S1024x512) hzA2]
  simp only [View.readAt_eq_ld, Memref.IsWhole.read_unread, View.ld_unit_zero (S := S1024x512) hzA2,
    View.ld_unit_zero (S := S512x512) hzA2, View.ld_unit_zero (S := S512) hzA1]

end Cert.KernelIdeal.Hand

end
-- ==== Proof.KI.Dots.lean ====
import proofs.«100256_j75668733821313_2_alg».proof.Proof.Gen.KernelIdeal.Skeleton
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-! # The kernel's two matrix products over the extended reals, read at an index: a product into the zero
    accumulator is the plain sum over the contracted axis. -/

theorem lhsA_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhsA_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhsA_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhsA_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q
theorem lhsB_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhsB_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhsB_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhsB_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Rows against rows: `out[n, j] = ∑ k, l[n, k] * r[j, k]`. -/
theorem dotA_apply (l : FVec Ideal S1024x512 .bf16) (r : FVec Ideal S512x512 .bf16) (n : Fin 1024) (j : Fin 512) :
    matmul dot_S1024x512_S512x512_S1024x512_1_1_0_0_n_n none l r (constant (F := Ideal) S1024x512 .f32 0x00000000#32) (ix2 n j)
      = ∑ k : Fin 512, l (ix2 n k) * r (ix2 j k) := by
  simp only [matmul]
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 n j) ((ValueIdx.contrEquiv1 dot_S1024x512_S512x512_S1024x512_1_1_0_0_n_n 512 rfl rfl).symm k) = ix2 n k := funext fun a => Fin.ext (by
    match a with
    | ⟨0, _⟩ => exact lhsA_0 _ _
    | ⟨1, _⟩ => exact (lhsA_1 _ _).trans hk)
  have er : dot_S1024x512_S512x512_S1024x512_1_1_0_0_n_n.rhsIdx (ix2 n j) ((ValueIdx.contrEquiv1 dot_S1024x512_S512x512_S1024x512_1_1_0_0_n_n 512 rfl rfl).symm k) = ix2 j k := funext fun a => Fin.ext (by
    match a with
    | ⟨0, _⟩ => exact rhsA_0 _ _
    | ⟨1, _⟩ => exact (rhsA_1 _ _).trans hk)
  rw [el, er]

/-- Rows against columns: `out[n, e] = ∑ k, l[n, k] * r[k, e]`. -/
theorem dotB_apply (l : FVec Ideal S1024x512 .bf16) (r : FVec Ideal S512x512 .bf16) (n : Fin 1024) (e : Fin 512) :
    matmul dot_S1024x512_S512x512_S1024x512_1_0_0_1_n_n none l r (constant (F := Ideal) S1024x512 .f32 0x00000000#32) (ix2 n e)
      = ∑ k : Fin 512, l (ix2 n k) * r (ix2 k e) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 n e) ((ValueIdx.contrEquiv1 dot_S1024x512_S512x512_S1024x512_1_0_0_1_n_n 512 rfl rfl).symm k) = ix2 n k := funext fun a => Fin.ext (by
    match a with
    | ⟨0, _⟩ => exact lhsB_0 _ _
    | ⟨1, _⟩ => exact (lhsB_1 _ _).trans hk)
  have er : dot_S1024x512_S512x512_S1024x512_1_0_0_1_n_n.rhsIdx (ix2 n e) ((ValueIdx.contrEquiv1 dot_S1024x512_S512x512_S1024x512_1_0_0_1_n_n 512 rfl rfl).symm k) = ix2 k e := funext fun a => Fin.ext (by
    match a with
    | ⟨0, _⟩ => exact (rhsB_0 _ _).trans hk
    | ⟨1, _⟩ => exact rhsB_1 _ _)
  rw [el, er]

end Cert.KernelIdeal.Hand

end
-- ==== Proof.KI.Pay.lean ====
import proofs.«100256_j75668733821313_2_alg».proof.Proof.KI.Dots
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-! # The bodies' payloads over the extended reals, read at an index. -/

/-- A projection payload at row `n`, column `e`: the row against the weight matrix's row `e`, plus the bias at `e`
    (the changes of float format are the identity here). -/
theorem k0_pay2_apply (v0 : Vec Ideal S1024x512 .f32) (v3 : Vec Ideal S512x512 .bf16) (v9 : Vec Ideal S512 .f32) (n : Fin 1024) (e : Fin 512) :
    k0_pay2 (F := Ideal) v0 v3 v9 (ix2 n e) = (∑ k : Fin 512, v0 (ix2 n k) * v3 (ix2 e k)) + v9 (ix1 e) := by
  unfold k0_pay2 k0_pay1
  simp only [shapeCast_self]
  rw [truncf_apply, addf_apply, dotA_apply, broadcastTo_1b_ab_apply, shapeCast_a_1a_apply]
  rfl

/-- A projection payload at row `n`, column `e`: the row against the weight matrix's row `e`, plus the bias at `e`
    (the changes of float format are the identity here). -/
theorem k0_pay3_apply (v0 : Vec Ideal S1024x512 .f32) (v5 : Vec Ideal S512x512 .bf16) (v10 : Vec Ideal S512 .f32) (n : Fin 1024) (e : Fin 512) :
    k0_pay3 (F := Ideal) v0 v5 v10 (ix2 n e) = (∑ k : Fin 512, v0 (ix2 n k) * v5 (ix2 e k)) + v10 (ix1 e) := by
  unfold k0_pay3 k0_pay1
  simp only [shapeCast_self]
  rw [truncf_apply, addf_apply, dotA_apply, broadcastTo_1b_ab_apply, shapeCast_a_1a_apply]
  rfl

/-- A projection payload at row `n`, column `e`: the row against the weight matrix's row `e`, plus the bias at `e`
    (the changes of float format are the identity here). -/
theorem k0_pay4_apply (v0 : Vec Ideal S1024x512 .f32) (v7 : Vec Ideal S512x512 .bf16) (v11 : Vec Ideal S512 .f32) (n : Fin 1024) (e : Fin 512) :
    k0_pay4 (F := Ideal) v0 v7 v11 (ix2 n e) = (∑ k : Fin 512, v0 (ix2 n k) * v7 (ix2 e k)) + v11 (ix1 e) := by
  unfold k0_pay4 k0_pay1
  simp only [shapeCast_self]
  rw [truncf_apply, addf_apply, dotA_apply, broadcastTo_1b_ab_apply, shapeCast_a_1a_apply]
  rfl

/-- The fill the attention body starts its scratch with is zero. -/
theorem k1_pay1_apply (j : S1024x512.Idx) : k1_pay1 (F := Ideal) j = 0 := by
  unfold k1_pay1
  rw [shapeCast_self]
  show Ideal.ofBits .f32 0x00000000#32 = 0
  exact Ideal.ofBits_zero_f32

/-- One trip's update at row `n`, column `e`: what the scratch held, plus the sum over the trip's 512 keys of the
    query row against the key row, times the value entry. -/
theorem k1_pay2_apply (v4 : Vec Ideal S1x1024x512 .bf16) (v18 v23 : Vec Ideal S512x512 .bf16) (v27 : Vec Ideal S1024x512 .f32)
    (n : Fin 1024) (e : Fin 512) :
    k1_pay2 (F := Ideal) v4 v18 v23 v27 (ix2 n e)
      = v27 (ix2 n e) + ∑ j : Fin 512, (∑ d : Fin 512, v4 (ix3 (0 : Fin 1) n d) * v18 (ix2 j d)) * v23 (ix2 j e) := by
  unfold k1_pay2
  simp only [shapeCast_self]
  rw [addf_apply, dotB_apply]
  congr 1
  refine Finset.sum_congr rfl fun j _ => ?_
  rw [truncf_apply, dotA_apply]
  congr 1
  refine Finset.sum_congr rfl fun d _ => ?_
  rw [shapeCast_1ab_ab_apply]

/-- The output block is the scratch with a unit axis in front. -/
theorem k1_pay3_apply {F : FTy → Type} [FloatOps F] (v7 : Vec F S1024x512 .f32) (u : Fin 1) (n : Fin 1024) (e : Fin 512) :
    k1_pay3 (F := F) v7 (ix3 u n e) = v7 (ix2 n e) := by
  unfold k1_pay3
  exact shapeCast_ab_1ab_apply _ _ u n e

end Cert.KernelIdeal.Hand

end
-- ==== Proof.KI.Blk0.lean ====
import proofs.«100256_j75668733821313_2_alg».proof.Proof.KI.Out0
import proofs.«100256_j75668733821313_2_alg».proof.Proof.KI.Pay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # The projection region's three result arrays over the extended reals: each is ONE function of the
    activations, a weight matrix and a bias row, index by index. -/

variable (V : (c : Dev nD) → (b : Ref sig .tc) → Buf (Elt Ideal) ((c : Thread nD τ).loc b))

/-- A projection of the flattened activations: row `i 0` against row `i 1` of the weight matrix, plus the bias at `i 1`. -/
def G0 (x : S32768x512.Idx → EReal) (w : S512x512.Idx → EReal) (b : S512.Idx → EReal) : S32768x512.Idx → EReal :=
  fun i => (∑ k : Fin 512, x (ix2 (i 0) k) * w (ix2 (i 1) k)) + b (ix1 (i 1))

/-- The printed index maps, decided over the grid: the activation window and the three result windows move one row
    block per point; the weights and biases stay. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_3.index t (0 : Fin 2) = 0
    ∧ win0_3.index t (1 : Fin 2) = 0
    ∧ win0_5.index t (0 : Fin 2) = 0
    ∧ win0_5.index t (1 : Fin 2) = 0
    ∧ win0_2.index t (0 : Fin 1) = 0
    ∧ win0_4.index t (0 : Fin 1) = 0
    ∧ win0_6.index t (0 : Fin 1) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

/-- What point `t` writes back into result 0 is block `t` of the projection of the arrays as the region finds them. -/
theorem flushed0_7_eq (c : Dev nD) (t : Fin cfg0.N) :
    (dat0 V c).flushed 7 t = ((cfg0.win 7).blk t).view.read (Elt Ideal) (G0 (V c main_v0) (V c main_v1) (V c main_arg2)) := by
  show (cfg0.win 7).cut (grid0.coords t) ((dat0 V c).after 7 t) = _
  rw [after0_7, out0_7_eq]
  obtain ⟨e0a, e0b, e1a, e1b, e3a, e3b, e5a, e5b, e2a, e4a, e6a, e7a, e7b, e8a, e8b, e9a, e9b⟩ := idx_facts0 t
  have ht : t.val < 32 := lt_of_lt_of_eq t.isLt N_0
  funext j
  obtain ⟨n, e, rfl⟩ : ∃ (n : Fin 1024) (e : Fin 512), j = ix2 n e := ⟨j 0, j 1, eq_ix2 j⟩
  show k0_pay2 (F := Ideal) (iblk0 V c 0 t) (iblk0 V c 1 t) (iblk0 V c 2 t) (ix2 n e) = _
  rw [k0_pay2_apply]
  have h0 : ∀ k : Fin 512, ((cfg0.win 0).blk t).view.emb (ix2 n k) = ix2 (⟨t.val * 1024 + n.val, by have := n.isLt; omega⟩ : Fin 32768) k := by
    intro k; funext a; apply Fin.ext
    match a with
    | ⟨0, _⟩ => show win0_0.index t (0 : Fin 2) * 1024 + 1 * n.val = t.val * 1024 + n.val; omega
    | ⟨1, _⟩ => show win0_0.index t (1 : Fin 2) * 512 + 1 * k.val = k.val; omega
  have h1 : ∀ k : Fin 512, ((cfg0.win 1).blk t).view.emb (ix2 e k) = ix2 e k := by
    intro k; funext a; apply Fin.ext
    match a with
    | ⟨0, _⟩ => show win0_1.index t (0 : Fin 2) * 512 + 1 * e.val = e.val; omega
    | ⟨1, _⟩ => show win0_1.index t (1 : Fin 2) * 512 + 1 * k.val = k.val; omega
  have h2 : ((cfg0.win 2).blk t).view.emb (ix1 e) = ix1 e := by
    funext a; apply Fin.ext
    match a with
    | ⟨0, _⟩ => show win0_2.index t (0 : Fin 1) * 512 + 1 * e.val = e.val; omega
  have h3 : ((cfg0.win 7).blk t).view.emb (ix2 n e) = ix2 (⟨t.val * 1024 + n.val, by have := n.isLt; omega⟩ : Fin 32768) e := by
    funext a; apply Fin.ext
    match a with
    | ⟨0, _⟩ => show win0_7.index t (0 : Fin 2) * 1024 + 1 * n.val = t.val * 1024 + n.val; omega
    | ⟨1, _⟩ => show win0_7.index t (1 : Fin 2) * 512 + 1 * e.val = e.val; omega
  have key : ∀ (X : S32768x512.Idx → EReal) (Wt : S512x512.Idx → EReal) (B : S512.Idx → EReal),
      (∑ k : Fin 512, X (((cfg0.win 0).blk t).view.emb (ix2 n k)) * Wt (((cfg0.win 1).blk t).view.emb (ix2 e k)))
          + B (((cfg0.win 2).blk t).view.emb (ix1 e))
        = G0 X Wt B (((cfg0.win 7).blk t).view.emb (ix2 n e)) := by
    intro X Wt B
    simp only [h0, h1]
    rw [h2, h3]
    rfl
  exact key (V c main_v0) (V c main_v1) (V c main_arg2)

/-- An index of result 0 is in point `t`'s block iff each coordinate is in the block's range on its axis. -/
theorem mem_blk0_7 (t : Fin cfg0.N) (i : S32768x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v4_0).slice (win0_7.rect t)).set ↔ _
  rw [View.set_slice_whole, Rect.mem_set_unit]
  exact Iff.rfl

/-- Every row of result 0 is in the block of the point `row / 1024`. -/
theorem cover0_7_arr (i : S32768x512.Idx) : ∃ t : Fin cfg0.N, (cfg0.win 7).flush t = true ∧ i ∈ ((cfg0.win 7).blk t).view.set := by
  have hi0 : (i 0).val < 32768 := (i 0).isLt
  have hi1 : (i 1).val < 512 := (i 1).isLt
  have hN : cfg0.N = 32 := N_0
  refine ⟨⟨(i 0).val / 1024, by omega⟩, flush0_7 _, ?_⟩
  rw [mem_blk0_7]
  obtain ⟨e0a, e0b, e1a, e1b, e3a, e3b, e5a, e5b, e2a, e4a, e6a, e7a, e7b, e8a, e8b, e9a, e9b⟩ := idx_facts0 ⟨(i 0).val / 1024, by omega⟩
  intro a
  match a with
  | ⟨0, _⟩ => show win0_7.index _ (0 : Fin 2) * 1024 ≤ (i 0).val ∧ (i 0).val < win0_7.index _ (0 : Fin 2) * 1024 + 1024; rw [e7a]; show (i 0).val / 1024 * 1024 ≤ (i 0).val ∧ (i 0).val < (i 0).val / 1024 * 1024 + 1024; omega
  | ⟨1, _⟩ => show win0_7.index _ (1 : Fin 2) * 512 ≤ (i 1).val ∧ (i 1).val < win0_7.index _ (1 : Fin 2) * 512 + 512; rw [e7b]; omega

/-- Result 0 after the region: the projection of the arrays as the region finds them. -/
theorem final0_7 (c : Dev nD) : (dat0 V c).arrAt 7 cfg0.N = G0 (V c main_v0) (V c main_v1) (V c main_arg2) :=
  (dat0 V c).arrAt_eq_of_cover 7 _ (fun t _ => flushed0_7_eq V c t) cover0_7_arr

/-- What point `t` writes back into result 1 is block `t` of the projection of the arrays as the region finds them. -/
theorem flushed0_8_eq (c : Dev nD) (t : Fin cfg0.N) :
    (dat0 V c).flushed 8 t = ((cfg0.win 8).blk t).view.read (Elt Ideal) (G0 (V c main_v0) (V c main_v2) (V c main_arg4)) := by
  show (cfg0.win 8).cut (grid0.coords t) ((dat0 V c).after 8 t) = _
  rw [after0_8, out0_8_eq]
  obtain ⟨e0a, e0b, e1a, e1b, e3a, e3b, e5a, e5b, e2a, e4a, e6a, e7a, e7b, e8a, e8b, e9a, e9b⟩ := idx_facts0 t
  have ht : t.val < 32 := lt_of_lt_of_eq t.isLt N_0
  funext j
  obtain ⟨n, e, rfl⟩ : ∃ (n : Fin 1024) (e : Fin 512), j = ix2 n e := ⟨j 0, j 1, eq_ix2 j⟩
  show k0_pay3 (F := Ideal) (iblk0 V c 0 t) (iblk0 V c 3 t) (iblk0 V c 4 t) (ix2 n e) = _
  rw [k0_pay3_apply]
  have h0 : ∀ k : Fin 512, ((cfg0.win 0).blk t).view.emb (ix2 n k) = ix2 (⟨t.val * 1024 + n.val, by have := n.isLt; omega⟩ : Fin 32768) k := by
    intro k; funext a; apply Fin.ext
    match a with
    | ⟨0, _⟩ => show win0_0.index t (0 : Fin 2) * 1024 + 1 * n.val = t.val * 1024 + n.val; omega
    | ⟨1, _⟩ => show win0_0.index t (1 : Fin 2) * 512 + 1 * k.val = k.val; omega
  have h1 : ∀ k : Fin 512, ((cfg0.win 3).blk t).view.emb (ix2 e k) = ix2 e k := by
    intro k; funext a; apply Fin.ext
    match a with
    | ⟨0, _⟩ => show win0_3.index t (0 : Fin 2) * 512 + 1 * e.val = e.val; omega
    | ⟨1, _⟩ => show win0_3.index t (1 : Fin 2) * 512 + 1 * k.val = k.val; omega
  have h2 : ((cfg0.win 4).blk t).view.emb (ix1 e) = ix1 e := by
    funext a; apply Fin.ext
    match a with
    | ⟨0, _⟩ => show win0_4.index t (0 : Fin 1) * 512 + 1 * e.val = e.val; omega
  have h3 : ((cfg0.win 8).blk t).view.emb (ix2 n e) = ix2 (⟨t.val * 1024 + n.val, by have := n.isLt; omega⟩ : Fin 32768) e := by
    funext a; apply Fin.ext
    match a with
    | ⟨0, _⟩ => show win0_8.index t (0 : Fin 2) * 1024 + 1 * n.val = t.val * 1024 + n.val; omega
    | ⟨1, _⟩ => show win0_8.index t (1 : Fin 2) * 512 + 1 * e.val = e.val; omega
  have key : ∀ (X : S32768x512.Idx → EReal) (Wt : S512x512.Idx → EReal) (B : S512.Idx → EReal),
      (∑ k : Fin 512, X (((cfg0.win 0).blk t).view.emb (ix2 n k)) * Wt (((cfg0.win 3).blk t).view.emb (ix2 e k)))
          + B (((cfg0.win 4).blk t).view.emb (ix1 e))
        = G0 X Wt B (((cfg0.win 8).blk t).view.emb (ix2 n e)) := by
    intro X Wt B
    simp only [h0, h1]
    rw [h2, h3]
    rfl
  exact key (V c main_v0) (V c main_v2) (V c main_arg4)

/-- An index of result 1 is in point `t`'s block iff each coordinate is in the block's range on its axis. -/
theorem mem_blk0_8 (t : Fin cfg0.N) (i : S32768x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v4_1).slice (win0_8.rect t)).set ↔ _
  rw [View.set_slice_whole, Rect.mem_set_unit]
  exact Iff.rfl

/-- Every row of result 1 is in the block of the point `row / 1024`. -/
theorem cover0_8_arr (i : S32768x512.Idx) : ∃ t : Fin cfg0.N, (cfg0.win 8).flush t = true ∧ i ∈ ((cfg0.win 8).blk t).view.set := by
  have hi0 : (i 0).val < 32768 := (i 0).isLt
  have hi1 : (i 1).val < 512 := (i 1).isLt
  have hN : cfg0.N = 32 := N_0
  refine ⟨⟨(i 0).val / 1024, by omega⟩, flush0_8 _, ?_⟩
  rw [mem_blk0_8]
  obtain ⟨e0a, e0b, e1a, e1b, e3a, e3b, e5a, e5b, e2a, e4a, e6a, e7a, e7b, e8a, e8b, e9a, e9b⟩ := idx_facts0 ⟨(i 0).val / 1024, by omega⟩
  intro a
  match a with
  | ⟨0, _⟩ => show win0_8.index _ (0 : Fin 2) * 1024 ≤ (i 0).val ∧ (i 0).val < win0_8.index _ (0 : Fin 2) * 1024 + 1024; rw [e8a]; show (i 0).val / 1024 * 1024 ≤ (i 0).val ∧ (i 0).val < (i 0).val / 1024 * 1024 + 1024; omega
  | ⟨1, _⟩ => show win0_8.index _ (1 : Fin 2) * 512 ≤ (i 1).val ∧ (i 1).val < win0_8.index _ (1 : Fin 2) * 512 + 512; rw [e8b]; omega

/-- Result 1 after the region: the projection of the arrays as the region finds them. -/
theorem final0_8 (c : Dev nD) : (dat0 V c).arrAt 8 cfg0.N = G0 (V c main_v0) (V c main_v2) (V c main_arg4) :=
  (dat0 V c).arrAt_eq_of_cover 8 _ (fun t _ => flushed0_8_eq V c t) cover0_8_arr

/-- What point `t` writes back into result 2 is block `t` of the projection of the arrays as the region finds them. -/
theorem flushed0_9_eq (c : Dev nD) (t : Fin cfg0.N) :
    (dat0 V c).flushed 9 t = ((cfg0.win 9).blk t).view.read (Elt Ideal) (G0 (V c main_v0) (V c main_v3) (V c main_arg6)) := by
  show (cfg0.win 9).cut (grid0.coords t) ((dat0 V c).after 9 t) = _
  rw [after0_9, out0_9_eq]
  obtain ⟨e0a, e0b, e1a, e1b, e3a, e3b, e5a, e5b, e2a, e4a, e6a, e7a, e7b, e8a, e8b, e9a, e9b⟩ := idx_facts0 t
  have ht : t.val < 32 := lt_of_lt_of_eq t.isLt N_0
  funext j
  obtain ⟨n, e, rfl⟩ : ∃ (n : Fin 1024) (e : Fin 512), j = ix2 n e := ⟨j 0, j 1, eq_ix2 j⟩
  show k0_pay4 (F := Ideal) (iblk0 V c 0 t) (iblk0 V c 5 t) (iblk0 V c 6 t) (ix2 n e) = _
  rw [k0_pay4_apply]
  have h0 : ∀ k : Fin 512, ((cfg0.win 0).blk t).view.emb (ix2 n k) = ix2 (⟨t.val * 1024 + n.val, by have := n.isLt; omega⟩ : Fin 32768) k := by
    intro k; funext a; apply Fin.ext
    match a with
    | ⟨0, _⟩ => show win0_0.index t (0 : Fin 2) * 1024 + 1 * n.val = t.val * 1024 + n.val; omega
    | ⟨1, _⟩ => show win0_0.index t (1 : Fin 2) * 512 + 1 * k.val = k.val; omega
  have h1 : ∀ k : Fin 512, ((cfg0.win 5).blk t).view.emb (ix2 e k) = ix2 e k := by
    intro k; funext a; apply Fin.ext
    match a with
    | ⟨0, _⟩ => show win0_5.index t (0 : Fin 2) * 512 + 1 * e.val = e.val; omega
    | ⟨1, _⟩ => show win0_5.index t (1 : Fin 2) * 512 + 1 * k.val = k.val; omega
  have h2 : ((cfg0.win 6).blk t).view.emb (ix1 e) = ix1 e := by
    funext a; apply Fin.ext
    match a with
    | ⟨0, _⟩ => show win0_6.index t (0 : Fin 1) * 512 + 1 * e.val = e.val; omega
  have h3 : ((cfg0.win 9).blk t).view.emb (ix2 n e) = ix2 (⟨t.val * 1024 + n.val, by have := n.isLt; omega⟩ : Fin 32768) e := by
    funext a; apply Fin.ext
    match a with
    | ⟨0, _⟩ => show win0_9.index t (0 : Fin 2) * 1024 + 1 * n.val = t.val * 1024 + n.val; omega
    | ⟨1, _⟩ => show win0_9.index t (1 : Fin 2) * 512 + 1 * e.val = e.val; omega
  have key : ∀ (X : S32768x512.Idx → EReal) (Wt : S512x512.Idx → EReal) (B : S512.Idx → EReal),
      (∑ k : Fin 512, X (((cfg0.win 0).blk t).view.emb (ix2 n k)) * Wt (((cfg0.win 5).blk t).view.emb (ix2 e k)))
          + B (((cfg0.win 6).blk t).view.emb (ix1 e))
        = G0 X Wt B (((cfg0.win 9).blk t).view.emb (ix2 n e)) := by
    intro X Wt B
    simp only [h0, h1]
    rw [h2, h3]
    rfl
  exact key (V c main_v0) (V c main_v3) (V c main_arg6)

/-- An index of result 2 is in point `t`'s block iff each coordinate is in the block's range on its axis. -/
theorem mem_blk0_9 (t : Fin cfg0.N) (i : S32768x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v4_2).slice (win0_9.rect t)).set ↔ _
  rw [View.set_slice_whole, Rect.mem_set_unit]
  exact Iff.rfl

/-- Every row of result 2 is in the block of the point `row / 1024`. -/
theorem cover0_9_arr (i : S32768x512.Idx) : ∃ t : Fin cfg0.N, (cfg0.win 9).flush t = true ∧ i ∈ ((cfg0.win 9).blk t).view.set := by
  have hi0 : (i 0).val < 32768 := (i 0).isLt
  have hi1 : (i 1).val < 512 := (i 1).isLt
  have hN : cfg0.N = 32 := N_0
  refine ⟨⟨(i 0).val / 1024, by omega⟩, flush0_9 _, ?_⟩
  rw [mem_blk0_9]
  obtain ⟨e0a, e0b, e1a, e1b, e3a, e3b, e5a, e5b, e2a, e4a, e6a, e7a, e7b, e8a, e8b, e9a, e9b⟩ := idx_facts0 ⟨(i 0).val / 1024, by omega⟩
  intro a
  match a with
  | ⟨0, _⟩ => show win0_9.index _ (0 : Fin 2) * 1024 ≤ (i 0).val ∧ (i 0).val < win0_9.index _ (0 : Fin 2) * 1024 + 1024; rw [e9a]; show (i 0).val / 1024 * 1024 ≤ (i 0).val ∧ (i 0).val < (i 0).val / 1024 * 1024 + 1024; omega
  | ⟨1, _⟩ => show win0_9.index _ (1 : Fin 2) * 512 ≤ (i 1).val ∧ (i 1).val < win0_9.index _ (1 : Fin 2) * 512 + 512; rw [e9b]; omega

/-- Result 2 after the region: the projection of the arrays as the region finds them. -/
theorem final0_9 (c : Dev nD) : (dat0 V c).arrAt 9 cfg0.N = G0 (V c main_v0) (V c main_v3) (V c main_arg6) :=
  (dat0 V c).arrAt_eq_of_cover 9 _ (fun t _ => flushed0_9_eq V c t) cover0_9_arr

end Cert.KernelIdeal.Hand

end
-- ==== Proof.KI.Acc.lean ====
import proofs.«100256_j75668733821313_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the attention body leaves in its output block: the scratch after the eight key blocks, each block's
    contribution added to what the blocks before left, from zero. -/

abbrev rW2 : Rect S1024x512 := Rect.unit (s := S1024x512) ![0, 0] S1024x512.size inb_S1024x512_S1024x512_0_0
abbrev rW3 : Rect S1x1024x512 := Rect.unit (s := S1x1024x512) ![0, 0, 0] S1x1024x512.size inb_S1x1024x512_S1x1024x512_0_0_0
theorem hz2 : (![0, 0] : Fin 2 → ℕ) = fun _ => 0 := funext fun a => by fin_cases a <;> rfl
theorem hz3 : (![0, 0, 0] : Fin 3 → ℕ) = fun _ => 0 := funext fun a => by fin_cases a <;> rfl

/-- One trip writes the whole scratch once: the query block against the trip's key rows, times the trip's value
    rows, added to what the scratch held. -/
theorem tripL_eq (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole) (v4 : Vec F S1x1024x512 .bf16)
    (X16 : BufTy.Contents (Elt F) (kview arg3).view.ty) (X21 : BufTy.Contents (Elt F) (kview arg4).view.ty)
    (k : Fin k1_t1_loop.trips) (f : BufTy.Contents (Elt F) arg6.view.ty) :
    tripL_k1_t1 (F := F) Variants.none c none i arg2 harg2 arg3 harg3 arg4 harg4 arg5 harg5 arg6 harg6 v4 (kview arg3) rfl (kview arg4) rfl X16 X21 k f
      = [⟨rW2, k1_pay2 v4 (View.readAt (Elt F) (kview arg3).view (Rect.unit (s := S4096x512) (k1_off1 k) S512x512.size (k1_off1_inb k)).toLoadRect X16) (View.readAt (Elt F) (kview arg4).view (Rect.unit (s := S4096x512) (k1_off1 k) S512x512.size (k1_off1_inb k)).toLoadRect X21)
          (View.readAt (Elt F) arg6.view rW2.toLoadRect f)⟩] := by
  with_unfolding_all rfl

/-- The scratch before trip `k`: zero before the first, then each trip's sum added. -/
def accV (arg3 : Memref sig .tc .vmem S1x4096x512 .bf16) (harg3 : arg3.IsWhole) (arg4 : Memref sig .tc .vmem S1x4096x512 .bf16) (harg4 : arg4.IsWhole)
    (x1 x2 : Vec F S1x4096x512 .bf16) (v4 : Vec F S1x1024x512 .bf16) : ℕ → Vec F S1024x512 .f32
  | 0 => k1_pay1
  | k + 1 => if h : k < k1_t1_loop.trips then
      k1_pay2 v4 (View.readAt (Elt F) (kview arg3).view (Rect.unit (s := S4096x512) (k1_off1 ⟨k, h⟩) S512x512.size (k1_off1_inb ⟨k, h⟩)).toLoadRect (harg3.unread x1)) (View.readAt (Elt F) (kview arg4).view (Rect.unit (s := S4096x512) (k1_off1 ⟨k, h⟩) S512x512.size (k1_off1_inb ⟨k, h⟩)).toLoadRect (harg4.unread x2))
        (accV arg3 harg3 arg4 harg4 x1 x2 v4 k)
    else accV arg3 harg3 arg4 harg4 x1 x2 v4 k

/-- A whole-block store, last, leaves its payload whatever was stored before. -/
theorem acc_head (arg6 : Memref sig .tc .vmem S1024x512 .f32) (w : S1024x512.Idx → Elt F .f32) (L : List (View.Piece (Elt F) S1024x512 .f32)) :
    arg6.view.read (Elt F) (arg6.view.writes (Elt F) arg6.view.junk ((⟨rW2, w⟩ : View.Piece (Elt F) S1024x512 .f32) :: L)) = w := by
  have hc : ∀ y : S1024x512.Idx, ∃ p ∈ ((⟨rW2, w⟩ : View.Piece (Elt F) S1024x512 .f32) :: L), y ∈ p.1.set :=
    fun y => ⟨⟨rW2, w⟩, List.mem_cons_self, View.mem_set_unit_zero (S := S1024x512) hz2 inb_S1024x512_S1024x512_0_0 y⟩
  rw [View.read_writes_eq_canon arg6.view arg6.view.junk _ hc]
  exact View.canon_cons_unit_zero (S := S1024x512) hz2 inb_S1024x512_S1024x512_0_0 w L

/-- No trip before the first. -/
theorem acc_pb_zero (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole) (x1 x2 : Vec F S1x4096x512 .bf16) (v4 : Vec F S1x1024x512 .bf16) :
    pb_k1_t1 (F := F) Variants.none c none i arg2 harg2 arg3 harg3 arg4 harg4 arg5 harg5 arg6 harg6 v4 (kview arg3) rfl (kview arg4) rfl (harg3.unread x1) (harg4.unread x2)
          (arg6.view.writes (Elt F) arg6.view.junk kernelRun1.sl.H6_1) 0 = [] := rfl

/-- The pieces before trip `k + 1`: trip `k`'s, at what the earlier trips left, in front of the earlier ones. -/
theorem acc_pb_succ (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole) (x1 x2 : Vec F S1x4096x512 .bf16) (v4 : Vec F S1x1024x512 .bf16) (k : ℕ) (hlt : k < k1_t1_loop.trips) :
    pb_k1_t1 (F := F) Variants.none c none i arg2 harg2 arg3 harg3 arg4 harg4 arg5 harg5 arg6 harg6 v4 (kview arg3) rfl (kview arg4) rfl (harg3.unread x1) (harg4.unread x2)
          (arg6.view.writes (Elt F) arg6.view.junk kernelRun1.sl.H6_1) (k + 1)
      = tripL_k1_t1 (F := F) Variants.none c none i arg2 harg2 arg3 harg3 arg4 harg4 arg5 harg5 arg6 harg6 v4 (kview arg3) rfl (kview arg4) rfl (harg3.unread x1) (harg4.unread x2) ⟨k, hlt⟩
          (arg6.view.writes (Elt F) (arg6.view.writes (Elt F) arg6.view.junk kernelRun1.sl.H6_1)
            (pb_k1_t1 (F := F) Variants.none c none i arg2 harg2 arg3 harg3 arg4 harg4 arg5 harg5 arg6 harg6 v4 (kview arg3) rfl (kview arg4) rfl (harg3.unread x1) (harg4.unread x2)
              (arg6.view.writes (Elt F) arg6.view.junk kernelRun1.sl.H6_1) k))
        ++ pb_k1_t1 (F := F) Variants.none c none i arg2 harg2 arg3 harg3 arg4 harg4 arg5 harg5 arg6 harg6 v4 (kview arg3) rfl (kview arg4) rfl (harg3.unread x1) (harg4.unread x2)
          (arg6.view.writes (Elt F) arg6.view.junk kernelRun1.sl.H6_1) k :=
  pb_k1_t1_succ (F := F) Variants.none c none i arg2 harg2 arg3 harg3 arg4 harg4 arg5 harg5 arg6 harg6 v4 (kview arg3) rfl (kview arg4) rfl (harg3.unread x1) (harg4.unread x2)
      (arg6.view.writes (Elt F) arg6.view.junk kernelRun1.sl.H6_1) ⟨k, hlt⟩

set_option maxHeartbeats 1000000 in
/-- The pieces of the trips before `k`, written over the zero fill, read back as the running sum. -/
theorem acc_spec (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole) (x1 x2 : Vec F S1x4096x512 .bf16) (v4 : Vec F S1x1024x512 .bf16) :
    ∀ (k : ℕ), k ≤ k1_t1_loop.trips →
      arg6.view.read (Elt F) (arg6.view.writes (Elt F) arg6.view.junk
        (pb_k1_t1 (F := F) Variants.none c none i arg2 harg2 arg3 harg3 arg4 harg4 arg5 harg5 arg6 harg6 v4 (kview arg3) rfl (kview arg4) rfl (harg3.unread x1) (harg4.unread x2)
          (arg6.view.writes (Elt F) arg6.view.junk kernelRun1.sl.H6_1) k ++ kernelRun1.sl.H6_1))
      = accV arg3 harg3 arg4 harg4 x1 x2 v4 k := by
  intro k
  induction k with
  | zero =>
    intro _
    rw [acc_pb_zero c i arg2 harg2 arg3 harg3 arg4 harg4 arg5 harg5 arg6 harg6 x1 x2 v4, List.nil_append]
    exact acc_head arg6 k1_pay1 []
  | succ k ih =>
    intro hk
    have hlt : k < k1_t1_loop.trips := hk
    rw [acc_pb_succ c i arg2 harg2 arg3 harg3 arg4 harg4 arg5 harg5 arg6 harg6 x1 x2 v4 k hlt, tripL_eq]
    simp only [List.cons_append, List.nil_append]
    rw [acc_head]
    show _ = accV arg3 harg3 arg4 harg4 x1 x2 v4 (k + 1)
    rw [accV, dif_pos hlt]
    refine congrArg (k1_pay2 v4 _ _) ?_
    rw [View.readAt_eq_ld, View.ld_unit_zero (S := S1024x512) hz2, ← View.writes_append]
    exact ih (Nat.le_of_lt hlt)

/-- The query block as the body loads it is the block. -/
theorem v4_eq (arg2 : Memref sig .tc .vmem S1x1024x512 .bf16) (harg2 : arg2.IsWhole) (x0 : Vec F S1x1024x512 .bf16) :
    View.readAt (Elt F) arg2.view rW3.toLoadRect (harg2.unread x0) = x0 := by
  rw [View.readAt_eq_ld, harg2.read_unread, View.ld_unit_zero (S := S1x1024x512) hz3]

set_option maxHeartbeats 1000000 in
/-- What the body reads from the scratch after the loop is the eighth running sum. -/
theorem v7_eq (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole) (x0 : Vec F S1x1024x512 .bf16) (x1 x2 : Vec F S1x4096x512 .bf16) :
    kernelRun1.sl.v7 (F := F) c i arg2 harg2 arg3 harg3 arg4 harg4 arg5 harg5 arg6 harg6 x0 x1 x2 = accV arg3 harg3 arg4 harg4 x1 x2 x0 k1_t1_loop.trips := by
  unfold kernelRun1.sl.v7
  rw [View.readAt_eq_ld, View.ld_unit_zero (S := S1024x512) hz2, v4_eq arg2 harg2 x0]
  exact acc_spec c i arg2 harg2 arg3 harg3 arg4 harg4 arg5 harg5 arg6 harg6 x1 x2 x0 k1_t1_loop.trips le_rfl

set_option maxHeartbeats 4000000 in
/-- The run's one piece for the output block: the scratch as read after the loop, a unit axis put in front. -/
theorem run1_pieces (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole) (x0 : Vec F S1x1024x512 .bf16) (x1 x2 : Vec F S1x4096x512 .bf16) :
    (kernelRun1 (F := F) c i arg2 harg2 arg3 harg3 arg4 harg4 arg5 harg5 arg6 harg6 x0 x1 x2).1 = [⟨rW3, k1_pay3 (kernelRun1.sl.v7 (F := F) c i arg2 harg2 arg3 harg3 arg4 harg4 arg5 harg5 arg6 harg6 x0 x1 x2)⟩] := rfl

/-- So the output block is that sum with a unit axis put in front. -/
theorem out1_eq (c : Dev nD) (i : grid1.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .f32) (harg5 : arg5.IsWhole) (arg6 : Memref sig .tc .vmem S1024x512 .f32) (harg6 : arg6.IsWhole) (x0 : Vec F S1x1024x512 .bf16) (x1 x2 : Vec F S1x4096x512 .bf16) :
    View.canon (kernelRun1 (F := F) c i arg2 harg2 arg3 harg3 arg4 harg4 arg5 harg5 arg6 harg6 x0 x1 x2).1 = k1_pay3 (accV arg3 harg3 arg4 harg4 x1 x2 x0 k1_t1_loop.trips) := by
  rw [run1_pieces, View.canon_unit_zero (S := S1x1024x512) hz3 inb_S1x1024x512_S1x1024x512_0_0_0, v7_eq]

end Cert.KernelIdeal.Hand

end
-- ==== Proof.RefSpec.lean ====
/-
  The reference computation as plain mathematics over the extended reals.

  For `x : [8, 4096, 512]`, weight matrices `w : [512, 512]` and bias rows `b : [512]`:
    proj x w b [bi, n, e] = (∑ d : Fin 512, x[bi, n, d] * w[e, d]) + b[e]
    attn q1 q2 r [bi, n, e] = ∑ m : Fin 4096, (∑ d : Fin 512, q1[bi, n, d] * q2[bi, m, d]) * r[bi, m, e]
  `ref_eq`: the reference's result (the generated stage `val_main_v13`, read at the extended reals) is
  `attn (proj x0 x1 x2) (proj x0 x3 x4) (proj x0 x5 x6)`.

  `accTo_eight`: a sum over 4096 keys is the left-to-right accumulation, from zero, of its eight
  consecutive block sums of 512 keys. Only commutativity and associativity of addition are used.
-/
import Idealize.ShloMosaic.Lib.ValueIdx
import Idealize.ShloMosaic.PureOps.Ideal.Laws
import proofs.«100256_j75668733821313_2_alg».proof.Proof.Gen.ReferenceIdeal.Read

noncomputable section

namespace Cert.RefSpec

open Idealize.ShloMosaic

/-! ### The reference as mathematics: three affine projections and an unnormalised attention product -/

/-- A projection: `proj x w b [bi, n, e] = (∑ d, x[bi, n, d] * w[e, d]) + b[e]`. -/
def proj (x : Cert.ReferenceIdeal.S8x4096x512.Idx → EReal) (w : Cert.ReferenceIdeal.S512x512.Idx → EReal)
    (b : Cert.ReferenceIdeal.S512.Idx → EReal) : Cert.ReferenceIdeal.S8x4096x512.Idx → EReal :=
  fun i => (∑ d : Fin 512, x (ValueIdx.ix3 (n0 := 8) (n1 := 4096) (n2 := 512) (i 0) (i 1) d)
      * w (ValueIdx.ix2 (n0 := 512) (n1 := 512) (i 2) d))
    + b (ValueIdx.ix1 (n := 512) (i 2))

/-- The score-weighted sum over keys:
    `attn q1 q2 r [bi, n, e] = ∑ m, (∑ d, q1[bi, n, d] * q2[bi, m, d]) * r[bi, m, e]`. -/
def attn (q1 q2 r : Cert.ReferenceIdeal.S8x4096x512.Idx → EReal) : Cert.ReferenceIdeal.S8x4096x512.Idx → EReal :=
  fun i => ∑ m : Fin 4096,
    (∑ d : Fin 512, q1 (ValueIdx.ix3 (n0 := 8) (n1 := 4096) (n2 := 512) (i 0) (i 1) d)
        * q2 (ValueIdx.ix3 (n0 := 8) (n1 := 4096) (n2 := 512) (i 0) m d))
      * r (ValueIdx.ix3 (n0 := 8) (n1 := 4096) (n2 := 512) (i 0) m (i 2))

/-- `proj` read at an index given by its coordinates. -/
theorem proj_ix3 (x : Cert.ReferenceIdeal.S8x4096x512.Idx → EReal) (w : Cert.ReferenceIdeal.S512x512.Idx → EReal)
    (b : Cert.ReferenceIdeal.S512.Idx → EReal) (bi : Fin 8) (n : Fin 4096) (e : Fin 512) :
    proj x w b (ValueIdx.ix3 bi n e)
      = (∑ d : Fin 512, x (ValueIdx.ix3 bi n d) * w (ValueIdx.ix2 e d)) + b (ValueIdx.ix1 e) := rfl

/-- `attn` read at an index given by its coordinates. -/
theorem attn_ix3 (q1 q2 r : Cert.ReferenceIdeal.S8x4096x512.Idx → EReal) (bi : Fin 8) (n : Fin 4096) (e : Fin 512) :
    attn q1 q2 r (ValueIdx.ix3 bi n e)
      = ∑ m : Fin 4096, (∑ d : Fin 512, q1 (ValueIdx.ix3 bi n d) * q2 (ValueIdx.ix3 bi m d))
          * r (ValueIdx.ix3 bi m e) := rfl

/-- A contraction of the last axis with a weight matrix's second axis, plus a bias row broadcast along the
    two leading axes, is `proj`: the index maps of the contraction and of the two broadcasts are the
    coordinate-wise indices `[bi, n, d]`, `[e, d]` and `[e]`. -/
theorem proj_stage (x0 : Cert.ReferenceIdeal.S8x4096x512.Idx → EReal) (w : Cert.ReferenceIdeal.S512x512.Idx → EReal)
    (b : Cert.ReferenceIdeal.S512.Idx → EReal) (i : Cert.ReferenceIdeal.S8x4096x512.Idx) :
    (∑ k : Fin 512, x0 (Cert.ReferenceIdeal.Read.lidx_main_v0 i k) * w (Cert.ReferenceIdeal.Read.ridx_main_v0 i k))
        + b (Cert.ReferenceIdeal.Read.idx_main_v1 (Cert.ReferenceIdeal.Read.idx_main_v2 i))
      = proj x0 w b i := by
  have el : ∀ k : Fin 512, Cert.ReferenceIdeal.Read.lidx_main_v0 i k
      = ValueIdx.ix3 (n0 := 8) (n1 := 4096) (n2 := 512) (i 0) (i 1) k := fun k =>
    funext fun a => by match a with | ⟨0, _⟩ => rfl | ⟨1, _⟩ => rfl | ⟨2, _⟩ => rfl
  have er : ∀ k : Fin 512, Cert.ReferenceIdeal.Read.ridx_main_v0 i k
      = ValueIdx.ix2 (n0 := 512) (n1 := 512) (i 2) k := fun k =>
    funext fun a => by match a with | ⟨0, _⟩ => rfl | ⟨1, _⟩ => rfl
  have eb : Cert.ReferenceIdeal.Read.idx_main_v1 (Cert.ReferenceIdeal.Read.idx_main_v2 i)
      = ValueIdx.ix1 (n := 512) (i 2) :=
    funext fun a => by match a with | ⟨0, _⟩ => rfl
  unfold proj
  rw [eb]
  congr 1
  refine Finset.sum_congr rfl fun k _ => ?_
  rw [el, er]

theorem v3_eq (x0 : Cert.ReferenceIdeal.S8x4096x512.Idx → EReal) (x1 : Cert.ReferenceIdeal.S512x512.Idx → EReal)
    (x2 : Cert.ReferenceIdeal.S512.Idx → EReal) :
    Cert.ReferenceIdeal.Read.val_main_v3 (F := Ideal) x0 x1 x2 = proj x0 x1 x2 := by
  funext i
  rw [Cert.ReferenceIdeal.Read.val_main_v3_apply, Cert.ReferenceIdeal.Read.val_main_v0_apply,
    Cert.ReferenceIdeal.Read.val_main_v2_apply, Cert.ReferenceIdeal.Read.val_main_v1_apply, Ideal.addf_def]
  exact proj_stage x0 x1 x2 i

theorem v7_eq (x0 : Cert.ReferenceIdeal.S8x4096x512.Idx → EReal) (x3 : Cert.ReferenceIdeal.S512x512.Idx → EReal)
    (x4 : Cert.ReferenceIdeal.S512.Idx → EReal) :
    Cert.ReferenceIdeal.Read.val_main_v7 (F := Ideal) x0 x3 x4 = proj x0 x3 x4 := by
  funext i
  rw [Cert.ReferenceIdeal.Read.val_main_v7_apply, Cert.ReferenceIdeal.Read.val_main_v4_apply,
    Cert.ReferenceIdeal.Read.val_main_v6_apply, Cert.ReferenceIdeal.Read.val_main_v5_apply, Ideal.addf_def]
  exact proj_stage x0 x3 x4 i

theorem v11_eq (x0 : Cert.ReferenceIdeal.S8x4096x512.Idx → EReal) (x5 : Cert.ReferenceIdeal.S512x512.Idx → EReal)
    (x6 : Cert.ReferenceIdeal.S512.Idx → EReal) :
    Cert.ReferenceIdeal.Read.val_main_v11 (F := Ideal) x0 x5 x6 = proj x0 x5 x6 := by
  funext i
  rw [Cert.ReferenceIdeal.Read.val_main_v11_apply, Cert.ReferenceIdeal.Read.val_main_v8_apply,
    Cert.ReferenceIdeal.Read.val_main_v10_apply, Cert.ReferenceIdeal.Read.val_main_v9_apply, Ideal.addf_def]
  exact proj_stage x0 x5 x6 i

/-- The reference's result, at the extended reals, is the attention product of its three projections. -/
theorem ref_eq (x0 : Cert.ReferenceIdeal.S8x4096x512.Idx → EReal) (x1 : Cert.ReferenceIdeal.S512x512.Idx → EReal)
    (x2 : Cert.ReferenceIdeal.S512.Idx → EReal) (x3 : Cert.ReferenceIdeal.S512x512.Idx → EReal)
    (x4 : Cert.ReferenceIdeal.S512.Idx → EReal) (x5 : Cert.ReferenceIdeal.S512x512.Idx → EReal)
    (x6 : Cert.ReferenceIdeal.S512.Idx → EReal) :
    Cert.ReferenceIdeal.Read.val_main_v13 (F := Ideal) x0 x1 x2 x3 x4 x5 x6
      = attn (proj x0 x1 x2) (proj x0 x3 x4) (proj x0 x5 x6) := by
  funext i
  rw [Cert.ReferenceIdeal.Read.val_main_v13_apply]
  unfold attn
  refine Finset.sum_congr rfl fun m _ => ?_
  rw [Cert.ReferenceIdeal.Read.val_main_v12_apply, v3_eq, v7_eq, v11_eq]
  have e13r : Cert.ReferenceIdeal.Read.ridx_main_v13 i m
      = ValueIdx.ix3 (n0 := 8) (n1 := 4096) (n2 := 512) (i 0) m (i 2) :=
    funext fun a => by match a with | ⟨0, _⟩ => rfl | ⟨1, _⟩ => rfl | ⟨2, _⟩ => rfl
  have e12l : ∀ d : Fin 512,
      Cert.ReferenceIdeal.Read.lidx_main_v12 (Cert.ReferenceIdeal.Read.lidx_main_v13 i m) d
        = ValueIdx.ix3 (n0 := 8) (n1 := 4096) (n2 := 512) (i 0) (i 1) d := fun d =>
    funext fun a => by match a with | ⟨0, _⟩ => rfl | ⟨1, _⟩ => rfl | ⟨2, _⟩ => rfl
  have e12r : ∀ d : Fin 512,
      Cert.ReferenceIdeal.Read.ridx_main_v12 (Cert.ReferenceIdeal.Read.lidx_main_v13 i m) d
        = ValueIdx.ix3 (n0 := 8) (n1 := 4096) (n2 := 512) (i 0) m d := fun d =>
    funext fun a => by match a with | ⟨0, _⟩ => rfl | ⟨1, _⟩ => rfl | ⟨2, _⟩ => rfl
  simp only [e13r, e12l, e12r]

/-! ### Regrouping a sum over 4096 keys into eight running block sums of 512

Only commutativity and associativity of addition on the extended reals are used; no finiteness
hypothesis is needed. -/

/-- The sum of `f` over the `k`-th block of 512 consecutive keys. -/
def blockSum (f : Fin 4096 → EReal) (k : ℕ) (hk : k < 8) : EReal :=
  ∑ j : Fin 512, f ⟨512 * k + j.val, by omega⟩

/-- The running sum of the first `k` block sums, accumulated left to right from zero. -/
def accTo (f : Fin 4096 → EReal) : (k : ℕ) → k ≤ 8 → EReal
  | 0, _ => 0
  | k + 1, h => accTo f k (by omega) + blockSum f k (by omega)

/-- `f` extended by zero to all natural numbers. -/
def extZero (f : Fin 4096 → EReal) (n : ℕ) : EReal := if h : n < 4096 then f ⟨n, h⟩ else 0

theorem extZero_of_lt (f : Fin 4096 → EReal) (n : ℕ) (h : n < 4096) : extZero f n = f ⟨n, h⟩ := by
  unfold extZero
  rw [dif_pos h]

/-- A block sum is the sum of the zero extension over the corresponding 512 consecutive naturals. -/
theorem blockSum_eq_range (f : Fin 4096 → EReal) (k : ℕ) (hk : k < 8) :
    blockSum f k hk = ∑ j ∈ Finset.range 512, extZero f (512 * k + j) := by
  unfold blockSum
  rw [← Fin.sum_univ_eq_sum_range (fun j => extZero f (512 * k + j)) 512]
  refine Finset.sum_congr rfl fun j _ => ?_
  rw [extZero_of_lt f (512 * k + j.val) (by omega)]

/-- The running sum after `k` blocks is the sum of the zero extension over the first `512 * k` naturals. -/
theorem accTo_eq_range (f : Fin 4096 → EReal) :
    ∀ (k : ℕ) (h : k ≤ 8), accTo f k h = ∑ n ∈ Finset.range (512 * k), extZero f n
  | 0, _ => by
    rw [accTo, Nat.mul_zero, Finset.range_zero, Finset.sum_empty]
  | k + 1, h => by
    rw [accTo, accTo_eq_range f k (by omega), blockSum_eq_range, Nat.mul_succ, Finset.sum_range_add]

/-- Eight running block sums of 512 add up to the sum over all 4096 keys. -/
theorem accTo_eight (f : Fin 4096 → EReal) : accTo f 8 le_rfl = ∑ m : Fin 4096, f m := by
  rw [accTo_eq_range f 8 le_rfl]
  show ∑ n ∈ Finset.range 4096, extZero f n = ∑ m : Fin 4096, f m
  rw [← Fin.sum_univ_eq_sum_range (fun n => extZero f n) 4096]
  refine Finset.sum_congr rfl fun m _ => ?_
  rw [extZero_of_lt f m.val m.isLt]

end Cert.RefSpec

end
-- ==== Proof.KI.AccI.lean ====
import proofs.«100256_j75668733821313_2_alg».proof.Proof.KI.Acc
import proofs.«100256_j75668733821313_2_alg».proof.Proof.KI.Pay
import proofs.«100256_j75668733821313_2_alg».proof.Proof.RefSpec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! # The running sum over the extended reals: before trip `k` the scratch holds, at row `n` and column `e`, the
    accumulation from zero of the first `k` block sums of `m ↦ (∑ d, q[n, d] * key[m, d]) * value[m, e]`. -/

theorem emb_unit_zero3 (y : S1x4096x512.Idx) :
    (Rect.unit (s := S1x4096x512) ![0, 0, 0] S1x4096x512.size inb_S1x4096x512_S1x4096x512_0_0_0).emb y = y := by
  have h : ∀ (off : Fin 3 → ℕ) (hoff : off = fun _ => 0) (inb : ∀ a, off a + S1x4096x512.size a ≤ S1x4096x512.size a) (y : S1x4096x512.Idx),
      (Rect.unit (s := S1x4096x512) off S1x4096x512.size inb).emb y = y := by
    intro off hoff inb y; subst hoff; exact Rect.emb_whole_apply S1x4096x512 y
  exact h _ (funext fun a => by fin_cases a <;> rfl) _ y

/-- A whole (1, 4096, 512) window read through its matrix view at `(a, b)` is the window at `(0, a, b)`. -/
theorem kview_read {F : FTy → Type} [FloatOps F] (M : Memref sig .tc .vmem S1x4096x512 .bf16) (hM : M.IsWhole) (x : Vec F S1x4096x512 .bf16) (a : Fin 4096) (b : Fin 512) :
    (kview M).view.read (Elt F) (hM.unread x) (ix2 a b) = x (ix3 (0 : Fin 1) a b) := by
  have h := congrFun (hM.read_unread x) (ix3 (0 : Fin 1) a b)
  rw [← h, View.read_apply, View.read_apply]
  have he : (kview M).view.emb (ix2 a b) = M.view.emb (ix3 (0 : Fin 1) a b) := by
    show M.view.emb ((Rect.unit (s := S1x4096x512) ![0, 0, 0] S1x4096x512.size inb_S1x4096x512_S1x4096x512_0_0_0).emb (Shape.reshapeEquiv _ (ix2 a b))) = _
    rw [reshapeEquiv_ix2_1ab, emb_unit_zero3]
    rfl
  rw [he]

/-- Trip `k`'s 512 rows of a window, at `(j, d)`: the window's row `512 k + j`. -/
theorem ldK_apply {F : FTy → Type} [FloatOps F] (M : Memref sig .tc .vmem S1x4096x512 .bf16) (hM : M.IsWhole) (x : Vec F S1x4096x512 .bf16)
    (k : Fin k1_t1_loop.trips) (j : Fin 512) (d : Fin 512) (hb : 512 * k.val + j.val < 4096) :
    View.readAt (Elt F) (kview M).view (Rect.unit (s := S4096x512) (k1_off1 k) S512x512.size (k1_off1_inb k)).toLoadRect (hM.unread x) (ix2 j d)
      = x (ix3 (0 : Fin 1) (⟨512 * k.val + j.val, hb⟩ : Fin 4096) d) := by
  have hidx : (Rect.unit (s := S4096x512) (k1_off1 k) S512x512.size (k1_off1_inb k)).toLoadRect.idx (ix2 j d) = ix2 (⟨512 * k.val + j.val, hb⟩ : Fin 4096) d := by
    have ho := k1_off1_eq k
    funext a; apply Fin.ext
    match a with
    | ⟨0, _⟩ => show (k1_off1 k) 0 + 1 * j.val = 512 * k.val + j.val; rw [ho]; show 512 * k.val + 1 * j.val = _; omega
    | ⟨1, _⟩ => show (k1_off1 k) 1 + 1 * d.val = d.val; rw [ho]; show 0 + 1 * d.val = _; omega
  rw [View.readAt_apply, hidx, kview_read]

theorem trips_eq : k1_t1_loop.trips = 8 := by decide

/-- The scratch before trip `k`, at an index, is the accumulation of the first `k` block sums. -/
theorem accV_apply (arg3 : Memref sig .tc .vmem S1x4096x512 .bf16) (harg3 : arg3.IsWhole) (arg4 : Memref sig .tc .vmem S1x4096x512 .bf16) (harg4 : arg4.IsWhole)
    (x1 x2 : Vec Ideal S1x4096x512 .bf16) (v4 : Vec Ideal S1x1024x512 .bf16) (n : Fin 1024) (e : Fin 512) :
    ∀ (k : ℕ) (hk : k ≤ 8), accV (F := Ideal) arg3 harg3 arg4 harg4 x1 x2 v4 k (ix2 n e)
      = Cert.RefSpec.accTo (fun m : Fin 4096 => (∑ d : Fin 512, v4 (ix3 (0 : Fin 1) n d) * x1 (ix3 (0 : Fin 1) m d)) * x2 (ix3 (0 : Fin 1) m e)) k hk := by
  intro k
  induction k with
  | zero =>
    intro hk
    rw [accV, Cert.RefSpec.accTo]
    exact k1_pay1_apply _
  | succ k ih =>
    intro hk
    have hlt : k < k1_t1_loop.trips := by rw [trips_eq]; omega
    rw [accV, dif_pos hlt, k1_pay2_apply, ih (by omega), Cert.RefSpec.accTo]
    congr 1
    unfold Cert.RefSpec.blockSum
    refine Finset.sum_congr rfl fun j _ => ?_
    have hb : 512 * k + j.val < 4096 := by have := j.isLt; omega
    simp only [ldK_apply arg3 harg3 x1 ⟨k, hlt⟩ j _ hb, ldK_apply arg4 harg4 x2 ⟨k, hlt⟩ j _ hb]

/-- After the eight trips the scratch holds the whole sum over the 4096 keys. -/
theorem accV_trips (arg3 : Memref sig .tc .vmem S1x4096x512 .bf16) (harg3 : arg3.IsWhole) (arg4 : Memref sig .tc .vmem S1x4096x512 .bf16) (harg4 : arg4.IsWhole)
    (x1 x2 : Vec Ideal S1x4096x512 .bf16) (v4 : Vec Ideal S1x1024x512 .bf16) (n : Fin 1024) (e : Fin 512) :
    accV (F := Ideal) arg3 harg3 arg4 harg4 x1 x2 v4 k1_t1_loop.trips (ix2 n e)
      = ∑ m : Fin 4096, (∑ d : Fin 512, v4 (ix3 (0 : Fin 1) n d) * x1 (ix3 (0 : Fin 1) m d)) * x2 (ix3 (0 : Fin 1) m e) := by
  have h := accV_apply arg3 harg3 arg4 harg4 x1 x2 v4 n e 8 le_rfl
  rw [Cert.RefSpec.accTo_eight] at h
  rw [trips_eq]
  exact h

end Cert.KernelIdeal.Hand

end
-- ==== Proof.KI.Blk1.lean ====
import proofs.«100256_j75668733821313_2_alg».proof.Proof.KI.AccI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # The attention region's result array over the extended reals: ONE function of the three arrays it reads,
    index by index — for each batch and query row, the sum over all keys of (query · key) times the value entry. -/

variable (V : (c : Dev nD) → (b : Ref sig .tc) → Buf (Elt Ideal) ((c : Thread nD τ).loc b))

/-- The printed index maps, decided over the grid: point `t` is batch `t / 4`, query block `t % 4`; the key and
    value windows are the batch's whole matrices. -/
theorem idx_facts1 : ∀ t : Fin cfg1.N, win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- What point `t` writes back is block `t` of the attention product of the arrays as the region finds them. -/
theorem flushed1_eq (c : Dev nD) (t : Fin cfg1.N) :
    (dat1 V c).flushed 3 t = ((cfg1.win 3).blk t).view.read (Elt Ideal) (Cert.RefSpec.attn (V c main_v5) (V c main_v6) (V c main_v7)) := by
  show (cfg1.win 3).cut (grid1.coords t) ((dat1 V c).after 3 t) = _
  rw [after1_3, out1_eq]
  obtain ⟨f0a, f0b, f0c, f1a, f1b, f1c, f2a, f2b, f2c, f3a, f3b, f3c⟩ := idx_facts1 t
  have ht : t.val < 32 := lt_of_lt_of_eq t.isLt N_1
  funext j
  obtain ⟨u, n, e, rfl⟩ : ∃ (u : Fin 1) (n : Fin 1024) (e : Fin 512), j = ix3 u n e := ⟨j 0, j 1, j 2, eq_ix3 j⟩
  have hu : u.val = 0 := by have := u.isLt; omega
  show k1_pay3 (F := Ideal) (accV (F := Ideal) _ _ _ _ (iblk1 V c 1 t) (iblk1 V c 2 t) (iblk1 V c 0 t) k1_t1_loop.trips) (ix3 u n e) = _
  rw [k1_pay3_apply, accV_trips]
  have h0 : ∀ d : Fin 512, ((cfg1.win 0).blk t).view.emb (ix3 (0 : Fin 1) n d)
      = ix3 (⟨t.val / 4, by omega⟩ : Fin 8) (⟨t.val % 4 * 1024 + n.val, by have := n.isLt; omega⟩ : Fin 4096) d := by
    intro d; funext a; apply Fin.ext
    match a with
    | ⟨0, _⟩ => show win1_0.index t (0 : Fin 3) * 1 + 1 * 0 = t.val / 4; omega
    | ⟨1, _⟩ => show win1_0.index t (1 : Fin 3) * 1024 + 1 * n.val = t.val % 4 * 1024 + n.val; omega
    | ⟨2, _⟩ => show win1_0.index t (2 : Fin 3) * 512 + 1 * d.val = d.val; omega
  have h1 : ∀ (m : Fin 4096) (d : Fin 512), ((cfg1.win 1).blk t).view.emb (ix3 (0 : Fin 1) m d) = ix3 (⟨t.val / 4, by omega⟩ : Fin 8) m d := by
    intro m d; funext a; apply Fin.ext
    match a with
    | ⟨0, _⟩ => show win1_1.index t (0 : Fin 3) * 1 + 1 * 0 = t.val / 4; omega
    | ⟨1, _⟩ => show win1_1.index t (1 : Fin 3) * 4096 + 1 * m.val = m.val; omega
    | ⟨2, _⟩ => show win1_1.index t (2 : Fin 3) * 512 + 1 * d.val = d.val; omega
  have h2 : ∀ (m : Fin 4096), ((cfg1.win 2).blk t).view.emb (ix3 (0 : Fin 1) m e) = ix3 (⟨t.val / 4, by omega⟩ : Fin 8) m e := by
    intro m; funext a; apply Fin.ext
    match a with
    | ⟨0, _⟩ => show win1_2.index t (0 : Fin 3) * 1 + 1 * 0 = t.val / 4; omega
    | ⟨1, _⟩ => show win1_2.index t (1 : Fin 3) * 4096 + 1 * m.val = m.val; omega
    | ⟨2, _⟩ => show win1_2.index t (2 : Fin 3) * 512 + 1 * e.val = e.val; omega
  have h3 : ((cfg1.win 3).blk t).view.emb (ix3 u n e)
      = ix3 (⟨t.val / 4, by omega⟩ : Fin 8) (⟨t.val % 4 * 1024 + n.val, by have := n.isLt; omega⟩ : Fin 4096) e := by
    funext a; apply Fin.ext
    match a with
    | ⟨0, _⟩ => show win1_3.index t (0 : Fin 3) * 1 + 1 * u.val = t.val / 4; omega
    | ⟨1, _⟩ => show win1_3.index t (1 : Fin 3) * 1024 + 1 * n.val = t.val % 4 * 1024 + n.val; omega
    | ⟨2, _⟩ => show win1_3.index t (2 : Fin 3) * 512 + 1 * e.val = e.val; omega
  have key : ∀ (Q1 Q2 R : S8x4096x512.Idx → EReal),
      (∑ m : Fin 4096, (∑ d : Fin 512, Q1 (((cfg1.win 0).blk t).view.emb (ix3 (0 : Fin 1) n d)) * Q2 (((cfg1.win 1).blk t).view.emb (ix3 (0 : Fin 1) m d)))
          * R (((cfg1.win 2).blk t).view.emb (ix3 (0 : Fin 1) m e)))
        = Cert.RefSpec.attn Q1 Q2 R (((cfg1.win 3).blk t).view.emb (ix3 u n e)) := by
    intro Q1 Q2 R
    simp only [h0, h1, h2]
    rw [h3]
    rfl
  exact key (V c main_v5) (V c main_v6) (V c main_v7)

/-- An index of the result is in point `t`'s block iff each coordinate is in the block's range on its axis. -/
theorem mem_blk1_3 (t : Fin cfg1.N) (i : S8x4096x512.Idx) :
    i ∈ ((cfg1.win 3).blk t).view.set ↔ ∀ a : Fin 3, win1_3.index t a * S1x1024x512.size a ≤ (i a).val ∧ (i a).val < win1_3.index t a * S1x1024x512.size a + S1x1024x512.size a := by
  show i ∈ ((View.whole main_v8).slice (win1_3.rect t)).set ↔ _
  rw [View.set_slice_whole, Rect.mem_set_unit]
  exact Iff.rfl

/-- Every index of the result is in the block of the point `4 · batch + row / 1024`. -/
theorem cover1_3_arr (i : S8x4096x512.Idx) : ∃ t : Fin cfg1.N, (cfg1.win 3).flush t = true ∧ i ∈ ((cfg1.win 3).blk t).view.set := by
  have hi0 : (i 0).val < 8 := (i 0).isLt
  have hi1 : (i 1).val < 4096 := (i 1).isLt
  have hi2 : (i 2).val < 512 := (i 2).isLt
  have hN : cfg1.N = 32 := N_1
  refine ⟨⟨(i 0).val * 4 + (i 1).val / 1024, by omega⟩, flush1_3 _, ?_⟩
  rw [mem_blk1_3]
  obtain ⟨f0a, f0b, f0c, f1a, f1b, f1c, f2a, f2b, f2c, f3a, f3b, f3c⟩ := idx_facts1 ⟨(i 0).val * 4 + (i 1).val / 1024, by omega⟩
  intro a
  match a with
  | ⟨0, _⟩ => show win1_3.index _ (0 : Fin 3) * 1 ≤ (i 0).val ∧ (i 0).val < win1_3.index _ (0 : Fin 3) * 1 + 1; rw [f3a]; show ((i 0).val * 4 + (i 1).val / 1024) / 4 * 1 ≤ (i 0).val ∧ (i 0).val < ((i 0).val * 4 + (i 1).val / 1024) / 4 * 1 + 1; omega
  | ⟨1, _⟩ => show win1_3.index _ (1 : Fin 3) * 1024 ≤ (i 1).val ∧ (i 1).val < win1_3.index _ (1 : Fin 3) * 1024 + 1024; rw [f3b]; show ((i 0).val * 4 + (i 1).val / 1024) % 4 * 1024 ≤ (i 1).val ∧ (i 1).val < ((i 0).val * 4 + (i 1).val / 1024) % 4 * 1024 + 1024; omega
  | ⟨2, _⟩ => show win1_3.index _ (2 : Fin 3) * 512 ≤ (i 2).val ∧ (i 2).val < win1_3.index _ (2 : Fin 3) * 512 + 512; rw [f3c]; omega

/-- The result array after the region: the attention product of the arrays as the region finds them. -/
theorem final1 (c : Dev nD) : (dat1 V c).arrAt 3 cfg1.N = Cert.RefSpec.attn (V c main_v5) (V c main_v6) (V c main_v7) :=
  (dat1 V c).arrAt_eq_of_cover 3 _ (fun t _ => flushed1_eq V c t) cover1_3_arr

end Cert.KernelIdeal.Hand

end
-- ==== Proof.KI.Host.lean ====
import proofs.«100256_j75668733821313_2_alg».proof.Proof.KI.Run
import proofs.«100256_j75668733821313_2_alg».proof.Proof.KI.Blk0
import proofs.«100256_j75668733821313_2_alg».proof.Proof.KI.Blk1
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-! # The kernel's result over the extended reals, as one function of the seven arguments: the host reshapes
    between the regions only re-index, so the attention product is taken of the three projections of the activations. -/

variable (m : (ℓ : Loc nD τ sig) → Buf (Elt Ideal) ℓ) (ρ : Dev nD → PrngReg)

/-- A (8, 4096, 512) array flattened to (32768, 512), at row `4096 b + n`: the array at `(b, n, ·)`. -/
theorem flat_apply {α : Type} (x : S8x4096x512.Idx → α) (h : S8x4096x512.ShapeCasts S32768x512) (b : Fin 8) (n : Fin 4096) (k : Fin 512)
    (hb : 4096 * b.val + n.val < 32768) :
    shapeCast S32768x512 x h (ix2 (⟨4096 * b.val + n.val, hb⟩ : Fin 32768) k) = x (ix3 b n k) :=
  shapeCast_apply x h _ _ (by
    rw [Shape.rowMajor_val_three, Shape.rowMajor_val_two]
    show (b.val * 4096 + n.val) * 512 + k.val = (4096 * b.val + n.val) * 512 + k.val
    rw [Nat.mul_comm b.val 4096])

/-- A (32768, 512) array cut into 8 batches of 4096 rows, at `(b, n, ·)`: the array at row `4096 b + n`. -/
theorem unflat_apply {α : Type} (y : S32768x512.Idx → α) (h : S32768x512.ShapeCasts S8x4096x512) (b : Fin 8) (n : Fin 4096) (e : Fin 512)
    (hb : 4096 * b.val + n.val < 32768) :
    shapeCast S8x4096x512 y h (ix3 b n e) = y (ix2 (⟨4096 * b.val + n.val, hb⟩ : Fin 32768) e) :=
  shapeCast_apply y h _ _ (by
    rw [Shape.rowMajor_val_three, Shape.rowMajor_val_two]
    show (4096 * b.val + n.val) * 512 + e.val = (b.val * 4096 + n.val) * 512 + e.val
    rw [Nat.mul_comm b.val 4096])

/-- The projection of the flattened activations at row `4096 b + n` is the projection of the activations at `(b, n)`. -/
theorem proj_flat (x : S8x4096x512.Idx → EReal) (w : S512x512.Idx → EReal) (bb : S512.Idx → EReal) (h : S8x4096x512.ShapeCasts S32768x512)
    (b : Fin 8) (n : Fin 4096) (e : Fin 512) (hb : 4096 * b.val + n.val < 32768) :
    G0 (fun i => shapeCast S32768x512 x h i) w bb (ix2 (⟨4096 * b.val + n.val, hb⟩ : Fin 32768) e) = Cert.RefSpec.proj x w bb (ix3 b n e) := by
  rw [Cert.RefSpec.proj_ix3]
  show (∑ k : Fin 512, shapeCast S32768x512 x h (ix2 (⟨4096 * b.val + n.val, hb⟩ : Fin 32768) k) * w (ix2 e k)) + bb (ix1 e) = _
  simp only [flat_apply x h b n _ hb]

/-- The flattened activations the projection region reads. -/
theorem V1_v0 (c : Dev nD) :
    V1 m ρ c main_v0 = fun i => shapeCast S32768x512 (m ((c : Thread nD τ).loc main_arg0)) shapeCasts_S8x4096x512_S32768x512 i := by
  show StableHlo.after hostOps0 (W0 m ρ c) (Proc.devRef .tc main_v0) = _
  after_results
  rfl

/-- A weight matrix narrowed on the host is itself over the extended reals. -/
theorem V1_v1 (c : Dev nD) : V1 m ρ c main_v1 = m ((c : Thread nD τ).loc main_arg1) := by
  show StableHlo.after hostOps0 (W0 m ρ c) (Proc.devRef .tc main_v1) = _
  after_results
  rfl

/-- A weight matrix narrowed on the host is itself over the extended reals. -/
theorem V1_v2 (c : Dev nD) : V1 m ρ c main_v2 = m ((c : Thread nD τ).loc main_arg3) := by
  show StableHlo.after hostOps0 (W0 m ρ c) (Proc.devRef .tc main_v2) = _
  after_results
  rfl

/-- A weight matrix narrowed on the host is itself over the extended reals. -/
theorem V1_v3 (c : Dev nD) : V1 m ρ c main_v3 = m ((c : Thread nD τ).loc main_arg5) := by
  show StableHlo.after hostOps0 (W0 m ρ c) (Proc.devRef .tc main_v3) = _
  after_results
  rfl

theorem V1_arg2 (c : Dev nD) : V1 m ρ c main_arg2 = m ((c : Thread nD τ).loc main_arg2) :=
  StableHlo.after_of_writes_sub hostOps0 _ hostOps0_writes (by decide)

theorem V1_arg4 (c : Dev nD) : V1 m ρ c main_arg4 = m ((c : Thread nD τ).loc main_arg4) :=
  StableHlo.after_of_writes_sub hostOps0 _ hostOps0_writes (by decide)

theorem V1_arg6 (c : Dev nD) : V1 m ρ c main_arg6 = m ((c : Thread nD τ).loc main_arg6) :=
  StableHlo.after_of_writes_sub hostOps0 _ hostOps0_writes (by decide)

/-- The array the attention region reads as main_v5: the projection of the launch activations by the launch weights and bias. -/
theorem V3_v5 (c : Dev nD) :
    V3 m ρ c main_v5 = Cert.RefSpec.proj (m ((c : Thread nD τ).loc main_arg0)) (m ((c : Thread nD τ).loc main_arg1)) (m ((c : Thread nD τ).loc main_arg2)) := by
  have h1 : V3 m ρ c main_v5 = fun i => shapeCast S8x4096x512 (W2 m ρ c (Proc.devRef .tc main_v4_0)) shapeCasts_S32768x512_S8x4096x512 i := by
    show StableHlo.after hostOps1 (W2 m ρ c) (Proc.devRef .tc main_v5) = _
    after_results
    rfl
  have h2 : W2 m ρ c (Proc.devRef .tc main_v4_0) = G0 (V1 m ρ c main_v0) (V1 m ρ c main_v1) (V1 m ρ c main_arg2) :=
    (W2_arr m ρ c 7).trans (final0_7 (V1 m ρ) c)
  rw [h1, h2, V1_v0, V1_v1, V1_arg2]
  funext i
  obtain ⟨b, n, e, rfl⟩ : ∃ (b : Fin 8) (n : Fin 4096) (e : Fin 512), i = ix3 b n e := ⟨i 0, i 1, i 2, eq_ix3 i⟩
  have hb : 4096 * b.val + n.val < 32768 := by have := b.isLt; have := n.isLt; omega
  rw [unflat_apply _ _ b n e hb]
  exact proj_flat _ _ _ _ b n e hb

/-- The array the attention region reads as main_v6: the projection of the launch activations by the launch weights and bias. -/
theorem V3_v6 (c : Dev nD) :
    V3 m ρ c main_v6 = Cert.RefSpec.proj (m ((c : Thread nD τ).loc main_arg0)) (m ((c : Thread nD τ).loc main_arg3)) (m ((c : Thread nD τ).loc main_arg4)) := by
  have h1 : V3 m ρ c main_v6 = fun i => shapeCast S8x4096x512 (W2 m ρ c (Proc.devRef .tc main_v4_1)) shapeCasts_S32768x512_S8x4096x512 i := by
    show StableHlo.after hostOps1 (W2 m ρ c) (Proc.devRef .tc main_v6) = _
    after_results
    rfl
  have h2 : W2 m ρ c (Proc.devRef .tc main_v4_1) = G0 (V1 m ρ c main_v0) (V1 m ρ c main_v2) (V1 m ρ c main_arg4) :=
    (W2_arr m ρ c 8).trans (final0_8 (V1 m ρ) c)
  rw [h1, h2, V1_v0, V1_v2, V1_arg4]
  funext i
  obtain ⟨b, n, e, rfl⟩ : ∃ (b : Fin 8) (n : Fin 4096) (e : Fin 512), i = ix3 b n e := ⟨i 0, i 1, i 2, eq_ix3 i⟩
  have hb : 4096 * b.val + n.val < 32768 := by have := b.isLt; have := n.isLt; omega
  rw [unflat_apply _ _ b n e hb]
  exact proj_flat _ _ _ _ b n e hb

/-- The array the attention region reads as main_v7: the projection of the launch activations by the launch weights and bias. -/
theorem V3_v7 (c : Dev nD) :
    V3 m ρ c main_v7 = Cert.RefSpec.proj (m ((c : Thread nD τ).loc main_arg0)) (m ((c : Thread nD τ).loc main_arg5)) (m ((c : Thread nD τ).loc main_arg6)) := by
  have h1 : V3 m ρ c main_v7 = fun i => shapeCast S8x4096x512 (W2 m ρ c (Proc.devRef .tc main_v4_2)) shapeCasts_S32768x512_S8x4096x512 i := by
    show StableHlo.after hostOps1 (W2 m ρ c) (Proc.devRef .tc main_v7) = _
    after_results
    rfl
  have h2 : W2 m ρ c (Proc.devRef .tc main_v4_2) = G0 (V1 m ρ c main_v0) (V1 m ρ c main_v3) (V1 m ρ c main_arg6) :=
    (W2_arr m ρ c 9).trans (final0_9 (V1 m ρ) c)
  rw [h1, h2, V1_v0, V1_v3, V1_arg6]
  funext i
  obtain ⟨b, n, e, rfl⟩ : ∃ (b : Fin 8) (n : Fin 4096) (e : Fin 512), i = ix3 b n e := ⟨i 0, i 1, i 2, eq_ix3 i⟩
  have hb : 4096 * b.val + n.val < 32768 := by have := b.isLt; have := n.isLt; omega
  rw [unflat_apply _ _ b n e hb]
  exact proj_flat _ _ _ _ b n e hb

/-- THE KERNEL'S RESULT: the attention product of the three projections of the launch arguments. -/
theorem kernel_value (c : Dev nD) :
    W4 m ρ c (Proc.devRef .tc main_v8)
      = Cert.RefSpec.attn
          (Cert.RefSpec.proj (m ((c : Thread nD τ).loc main_arg0)) (m ((c : Thread nD τ).loc main_arg1)) (m ((c : Thread nD τ).loc main_arg2)))
          (Cert.RefSpec.proj (m ((c : Thread nD τ).loc main_arg0)) (m ((c : Thread nD τ).loc main_arg3)) (m ((c : Thread nD τ).loc main_arg4)))
          (Cert.RefSpec.proj (m ((c : Thread nD τ).loc main_arg0)) (m ((c : Thread nD τ).loc main_arg5)) (m ((c : Thread nD τ).loc main_arg6))) := by
  rw [← V3_v5 m ρ c, ← V3_v6 m ρ c, ← V3_v7 m ρ c]
  exact (W4_arr m ρ c 3).trans (final1 (V3 m ρ) c)

end Cert.KernelIdeal.Hand

end
-- ==== Proof.lean ====
/-
  The attention kernel without softmax against its einsum reference, over the extended reals.

  For activations x : [8, 4096, 512], three weight matrices w : [512, 512] and three bias rows b : [512], both programs
  compute, for each batch bi, query row n and feature e,
      out[bi, n, e] = ∑ m : Fin 4096, (∑ d : Fin 512, q1[bi, n, d] * q2[bi, m, d]) * r[bi, m, e],
  where q1, q2, r are the three projections  proj x w b [bi, n, e] = (∑ d, x[bi, n, d] * w[e, d]) + b[e].

  The kernel does it in two regions. The first computes the three projections of one block of 1024 rows of the
  flattened activations per grid point. The second, per batch and block of 1024 query rows, clears an accumulator
  and adds, for each of eight blocks of 512 keys, the product of the (query · key) scores of that block with the
  block's value rows; the accumulator is then the result block. Over the extended reals the changes of float format
  are the identity and a product into a zero accumulator is the plain sum, so the accumulator after the eight blocks
  is zero plus the eight consecutive block sums of the summand over the 4096 keys, which is the whole sum: only
  commutativity and associativity of addition are used, and the precondition is never opened.

  Frames. Each kernel region is run at every grid point by its body's symbolic run: the projection body loads its seven
  blocks and stores its three; the attention body takes its scratch accumulator from the region's invariant at
  whatever it holds (it is filled before it is read), goes through the loop over the key blocks by the loop's
  invariant (the accumulator holds the pieces of the trips so far, the key and value windows read through their
  matrix views), and gives the scratch back. The two regions and the two host stretches around them are composed
  in order; the final state holds every unscoped buffer at the last boundary's contents, from which both the frame
  (no segment writes an argument) and the result array are read.
-/
import proofs.«100256_j75668733821313_2_alg».proof.Defs
import proofs.«100256_j75668733821313_2_alg».proof.Proof.Gen.Kernel
import proofs.«100256_j75668733821313_2_alg».proof.Proof.Gen.KernelIdeal
import proofs.«100256_j75668733821313_2_alg».proof.Proof.Gen.ReferenceIdeal
import proofs.«100256_j75668733821313_2_alg».proof.Proof.Gen.Pre_finite_inputs
import proofs.«100256_j75668733821313_2_alg».proof.Proof.Gen.ReferenceIdeal.Run
import proofs.«100256_j75668733821313_2_alg».proof.Proof.Gen.ReferenceIdeal.Read
import proofs.«100256_j75668733821313_2_alg».proof.Proof.K.Run
import proofs.«100256_j75668733821313_2_alg».proof.Proof.KI.Host
import proofs.«100256_j75668733821313_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the attention product of the three projections of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W4 (F := Ideal) m ρ c (Proc.devRef .tc Cert.KernelIdeal.main_v8), ?_, ?_⟩
  · exact (θ_run Cert.KernelIdeal.defs _ _).mono (fun _ h c =>
      ⟨h c _ (Cert.KernelIdeal.Hand.mem_uc Cert.KernelIdeal.main_v8 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c),
       (h c _ (Cert.KernelIdeal.Hand.mem_uc Cert.KernelIdeal.main_arg6 (by decide))).trans (Cert.KernelIdeal.Hand.W4_main_arg6 m ρ c)⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, Cert.RefSpec.ref_eq,
      (hagree c).1, (hagree c).2.1, (hagree c).2.2.1, (hagree c).2.2.2.1, (hagree c).2.2.2.2.1, (hagree c).2.2.2.2.2.1, (hagree c).2.2.2.2.2.2]
    exact (Cert.KernelIdeal.Hand.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
